-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x224x224x3 : Shape := ⟨4, ![64, 224, 224, 3]⟩
abbrev S1452x768 : Shape := ⟨2, ![1452, 768]⟩
abbrev S_ : Shape := ⟨0, ![]⟩

class Facts : Prop where
  bcast_S_S64x224x224x3 : S_.BroadcastsInDim S64x224x224x3 (![] : Fin 0 → Fin S64x224x224x3.rank)
  reducesTo_S64x224x224x3_S_d0_1_2_3 : S64x224x224x3.ReducesTo [0, 1, 2, 3] S_
  h_S_ : 0 < S_.numel
  bcast_S_S1452x768 : S_.BroadcastsInDim S1452x768 (![] : Fin 0 → Fin S1452x768.rank)
  reducesTo_S1452x768_S_d0_1 : S1452x768.ReducesTo [0, 1] S_

variable [Facts]

def fn {F : FTy → Type} [FloatOps F] (main_arg0 : FVec F S64x224x224x3 .f32) (main_arg1 : FVec F S1452x768 .f32) : IVec S_ 1 :=
  let main_v0 : FVec F S64x224x224x3 .f32 := Host.absf main_arg0
  let main_cst : FVec F S_ .f32 := constant S_ .f32 0x7F800000#32
  let main_v1 : FVec F S64x224x224x3 .f32 := broadcastInDim S64x224x224x3 ![] bcast_S_S64x224x224x3 main_cst
  let main_v2 : IVec S64x224x224x3 1 := cmpf .olt main_v0 main_v1
  let main_c : IVec S_ 1 := constantI S_ 1 1#1
  let main_v3 : IVec S_ 1 := (fun x v => Host.reduce IntOp.andi x v reducesTo_S64x224x224x3_S_d0_1_2_3 h_S_) main_v2 main_c
  let main_v4 : FVec F S1452x768 .f32 := Host.absf main_arg1
  let main_cst_0 : FVec F S_ .f32 := constant S_ .f32 0x7F800000#32
  let main_v5 : FVec F S1452x768 .f32 := broadcastInDim S1452x768 ![] bcast_S_S1452x768 main_cst_0
  let main_v6 : IVec S1452x768 1 := cmpf .olt main_v4 main_v5
  let main_c_1 : IVec S_ 1 := constantI S_ 1 1#1
  let main_v7 : IVec S_ 1 := (fun x v => Host.reduce IntOp.andi x v reducesTo_S1452x768_S_d0_1 h_S_) main_v6 main_c_1
  let main_v8 : IVec S_ 1 := andi main_v3 main_v7
  main_v8
-- ==== Kernel.lean ====
abbrev S64x224x224x3 : Shape := ⟨4, ![64, 224, 224, 3]⟩
abbrev S1452x768 : Shape := ⟨2, ![1452, 768]⟩
abbrev S64x196x768 : Shape := ⟨3, ![64, 196, 768]⟩
abbrev S4x224x224x3 : Shape := ⟨4, ![4, 224, 224, 3]⟩
abbrev S4x196x768 : Shape := ⟨3, ![4, 196, 768]⟩
abbrev S4x22x224x3 : Shape := ⟨4, ![4, 22, 224, 3]⟩
abbrev S4x1x22x224x3 : Shape := ⟨5, ![4, 1, 22, 224, 3]⟩
abbrev S4x14x22x224x3 : Shape := ⟨5, ![4, 14, 22, 224, 3]⟩
abbrev S4x14x22x22x3 : Shape := ⟨5, ![4, 14, 22, 22, 3]⟩
abbrev S4x14x1x22x22x3 : Shape := ⟨6, ![4, 14, 1, 22, 22, 3]⟩
abbrev S4x14x14x22x22x3 : Shape := ⟨6, ![4, 14, 14, 22, 22, 3]⟩
abbrev S784x1452 : Shape := ⟨2, ![784, 1452]⟩
abbrev S784x768 : Shape := ⟨2, ![784, 768]⟩

abbrev nBuf : Space → Nat
  | .hbm => 4
  | .vmem => 5
  | .smem => 0
  | _ => 0

abbrev bufTy : (tb : Table) → Fin (tcTables nBuf tb) → BufTy
  | .hbm, ⟨0, _⟩ => ⟨S64x224x224x3, .f32⟩
  | .hbm, ⟨1, _⟩ => ⟨S1452x768, .f32⟩
  | .hbm, ⟨2, _⟩ => ⟨S1452x768, .bf16⟩
  | .hbm, ⟨3, _⟩ => ⟨S64x196x768, .f32⟩
  | .local _ .vmem, ⟨0, _⟩ => ⟨S4x224x224x3, .f32⟩
  | .local _ .vmem, ⟨1, _⟩ => ⟨S4x224x224x3, .f32⟩
  | .local _ .vmem, ⟨2, _⟩ => ⟨S1452x768, .bf16⟩
  | .local _ .vmem, ⟨3, _⟩ => ⟨S4x196x768, .f32⟩
  | .local _ .vmem, ⟨4, _⟩ => ⟨S4x196x768, .f32⟩
  | _, _ => ⟨S64x224x224x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x224x224x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1452x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x196x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bitsLt_bf16_f32 : FTy.bits .bf16 < FTy.bits .f32
  inb_S4x224x224x3_S4x22x224x3_0_0_0_0 : ∀ a, (![0, 0, 0, 0] : Fin 4 → Nat) a + S4x22x224x3.size a ≤ S4x224x224x3.size a
  h_S4x22x224x3 : 0 < S4x22x224x3.numel
  inb_S4x224x224x3_S4x22x224x3_0_13_0_0 : ∀ a, (![0, 13, 0, 0] : Fin 4 → Nat) a + S4x22x224x3.size a ≤ S4x224x224x3.size a
  inb_S4x224x224x3_S4x22x224x3_0_29_0_0 : ∀ a, (![0, 29, 0, 0] : Fin 4 → Nat) a + S4x22x224x3.size a ≤ S4x224x224x3.size a
  inb_S4x224x224x3_S4x22x224x3_0_45_0_0 : ∀ a, (![0, 45, 0, 0] : Fin 4 → Nat) a + S4x22x224x3.size a ≤ S4x224x224x3.size a
  inb_S4x224x224x3_S4x22x224x3_0_61_0_0 : ∀ a, (![0, 61, 0, 0] : Fin 4 → Nat) a + S4x22x224x3.size a ≤ S4x224x224x3.size a
  inb_S4x224x224x3_S4x22x224x3_0_77_0_0 : ∀ a, (![0, 77, 0, 0] : Fin 4 → Nat) a + S4x22x224x3.size a ≤ S4x224x224x3.size a
  inb_S4x224x224x3_S4x22x224x3_0_93_0_0 : ∀ a, (![0, 93, 0, 0] : Fin 4 → Nat) a + S4x22x224x3.size a ≤ S4x224x224x3.size a
  inb_S4x224x224x3_S4x22x224x3_0_109_0_0 : ∀ a, (![0, 109, 0, 0] : Fin 4 → Nat) a + S4x22x224x3.size a ≤ S4x224x224x3.size a
  inb_S4x224x224x3_S4x22x224x3_0_125_0_0 : ∀ a, (![0, 125, 0, 0] : Fin 4 → Nat) a + S4x22x224x3.size a ≤ S4x224x224x3.size a
  inb_S4x224x224x3_S4x22x224x3_0_141_0_0 : ∀ a, (![0, 141, 0, 0] : Fin 4 → Nat) a + S4x22x224x3.size a ≤ S4x224x224x3.size a
  inb_S4x224x224x3_S4x22x224x3_0_157_0_0 : ∀ a, (![0, 157, 0, 0] : Fin 4 → Nat) a + S4x22x224x3.size a ≤ S4x224x224x3.size a
  inb_S4x224x224x3_S4x22x224x3_0_173_0_0 : ∀ a, (![0, 173, 0, 0] : Fin 4 → Nat) a + S4x22x224x3.size a ≤ S4x224x224x3.size a
  inb_S4x224x224x3_S4x22x224x3_0_189_0_0 : ∀ a, (![0, 189, 0, 0] : Fin 4 → Nat) a + S4x22x224x3.size a ≤ S4x224x224x3.size a
  inb_S4x224x224x3_S4x22x224x3_0_202_0_0 : ∀ a, (![0, 202, 0, 0] : Fin 4 → Nat) a + S4x22x224x3.size a ≤ S4x224x224x3.size a
  shapeCasts_S4x22x224x3_S4x1x22x224x3 : S4x22x224x3.ShapeCasts S4x1x22x224x3
  concatenates_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x14x22x224x3_d1 : Shape.Concatenates [S4x1x22x224x3, S4x1x22x224x3, S4x1x22x224x3, S4x1x22x224x3, S4x1x22x224x3, S4x1x22x224x3, S4x1x22x224x3, S4x1x22x224x3, S4x1x22x224x3, S4x1x22x224x3, S4x1x22x224x3, S4x1x22x224x3, S4x1x22x224x3, S4x1x22x224x3] S4x14x22x224x3 1
  slices_S4x14x22x224x3_o0_0_0_0_0_S4x14x22x22x3 : S4x14x22x224x3.Slices ![0, 0, 0, 0, 0] S4x14x22x22x3
  slices_S4x14x22x224x3_o0_0_0_13_0_S4x14x22x22x3 : S4x14x22x224x3.Slices ![0, 0, 0, 13, 0] S4x14x22x22x3
  slices_S4x14x22x224x3_o0_0_0_29_0_S4x14x22x22x3 : S4x14x22x224x3.Slices ![0, 0, 0, 29, 0] S4x14x22x22x3
  slices_S4x14x22x224x3_o0_0_0_45_0_S4x14x22x22x3 : S4x14x22x224x3.Slices ![0, 0, 0, 45, 0] S4x14x22x22x3
  slices_S4x14x22x224x3_o0_0_0_61_0_S4x14x22x22x3 : S4x14x22x224x3.Slices ![0, 0, 0, 61, 0] S4x14x22x22x3
  slices_S4x14x22x224x3_o0_0_0_77_0_S4x14x22x22x3 : S4x14x22x224x3.Slices ![0, 0, 0, 77, 0] S4x14x22x22x3
  slices_S4x14x22x224x3_o0_0_0_93_0_S4x14x22x22x3 : S4x14x22x224x3.Slices ![0, 0, 0, 93, 0] S4x14x22x22x3
  slices_S4x14x22x224x3_o0_0_0_109_0_S4x14x22x22x3 : S4x14x22x224x3.Slices ![0, 0, 0, 109, 0] S4x14x22x22x3
  slices_S4x14x22x224x3_o0_0_0_125_0_S4x14x22x22x3 : S4x14x22x224x3.Slices ![0, 0, 0, 125, 0] S4x14x22x22x3
  slices_S4x14x22x224x3_o0_0_0_141_0_S4x14x22x22x3 : S4x14x22x224x3.Slices ![0, 0, 0, 141, 0] S4x14x22x22x3
  slices_S4x14x22x224x3_o0_0_0_157_0_S4x14x22x22x3 : S4x14x22x224x3.Slices ![0, 0, 0, 157, 0] S4x14x22x22x3
  slices_S4x14x22x224x3_o0_0_0_173_0_S4x14x22x22x3 : S4x14x22x224x3.Slices ![0, 0, 0, 173, 0] S4x14x22x22x3
  slices_S4x14x22x224x3_o0_0_0_189_0_S4x14x22x22x3 : S4x14x22x224x3.Slices ![0, 0, 0, 189, 0] S4x14x22x22x3
  slices_S4x14x22x224x3_o0_0_0_202_0_S4x14x22x22x3 : S4x14x22x224x3.Slices ![0, 0, 0, 202, 0] S4x14x22x22x3
  shapeCasts_S4x14x22x22x3_S4x14x1x22x22x3 : S4x14x22x22x3.ShapeCasts S4x14x1x22x22x3
  concatenates_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x14x22x22x3_d2 : Shape.Concatenates [S4x14x1x22x22x3, S4x14x1x22x22x3, S4x14x1x22x22x3, S4x14x1x22x22x3, S4x14x1x22x22x3, S4x14x1x22x22x3, S4x14x1x22x22x3, S4x14x1x22x22x3, S4x14x1x22x22x3, S4x14x1x22x22x3, S4x14x1x22x22x3, S4x14x1x22x22x3, S4x14x1x22x22x3, S4x14x1x22x22x3] S4x14x14x22x22x3 2
  shapeCasts_S4x14x14x22x22x3_S784x1452 : S4x14x14x22x22x3.ShapeCasts S784x1452
  inb_S1452x768_S1452x768_0_0 : ∀ a, (![0, 0] : Fin 2 → Nat) a + S1452x768.size a ≤ S1452x768.size a
  h_S1452x768 : 0 < S1452x768.numel
  shapeCasts_S1452x768_S1452x768 : S1452x768.ShapeCasts S1452x768
  shapeCasts_S784x768_S4x196x768 : S784x768.ShapeCasts S4x196x768
  inb_S4x196x768_S4x196x768_0_0_0 : ∀ a, (![0, 0, 0] : Fin 3 → Nat) a + S4x196x768.size a ≤ S4x196x768.size a
  h_S4x196x768 : 0 < S4x196x768.numel
  dot_S784x1452_S1452x768_S784x768_1_0_0_1_n_n_wf : DotDims.WF S784x1452 S1452x768 S784x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x224x224x3.size a ≤ S64x224x224x3.size a
  hwx0_0 : ∀ i : grid0.Coords, EltTy.bits .f32 = 32 ∨ (Rect.block (s := S64x224x224x3) S4x224x224x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1452x768.size a ≤ S1452x768.size a
  hwx0_1 : ∀ i : grid0.Coords, EltTy.bits .bf16 = 32 ∨ (Rect.block (s := S1452x768) S1452x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x196x768.size a ≤ S64x196x768.size a
  hwx0_2 : ∀ i : grid0.Coords, EltTy.bits .f32 = 32 ∨ (Rect.block (s := S64x196x768) S4x196x768.size (cc0_transform_2 i) (hinb0_2 i)).WholeWords (EltTy.packing .f32)

variable [Facts₀]

def dot_S784x1452_S1452x768_S784x768_1_0_0_1_n_n : DotDims S784x1452 S1452x768 S784x768 where
  lhsContracting := [1]
  rhsContracting := [0]
  lhsNonContracting := [0]
  rhsNonContracting := [1]
  lhsBatch := []
  rhsBatch := []
  wf := dot_S784x1452_S1452x768_S784x768_1_0_0_1_n_n_wf

abbrev win0_0 : Pipeline.Window sig grid0 :=
  Pipeline.Window.ofSpec (Memref.whole main_arg0) S4x224x224x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1452x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S4x196x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x224x224x3 : Shape := ⟨4, ![64, 224, 224, 3]⟩
abbrev S1452x768 : Shape := ⟨2, ![1452, 768]⟩
abbrev S308 : Shape := ⟨1, ![308]⟩
abbrev S_ : Shape := ⟨0, ![]⟩
abbrev S308x1 : Shape := ⟨2, ![308, 1]⟩
abbrev S1 : Shape := ⟨1, ![1]⟩
abbrev S1x1 : Shape := ⟨2, ![1, 1]⟩
abbrev S64x308x224x3 : Shape := ⟨4, ![64, 308, 224, 3]⟩
abbrev S64x14x22x224x3 : Shape := ⟨5, ![64, 14, 22, 224, 3]⟩
abbrev S64x14x22x308x3 : Shape := ⟨5, ![64, 14, 22, 308, 3]⟩
abbrev S64x14x22x14x22x3 : Shape := ⟨6, ![64, 14, 22, 14, 22, 3]⟩
abbrev S64x14x14x22x22x3 : Shape := ⟨6, ![64, 14, 14, 22, 22, 3]⟩
abbrev S64x196x1452 : Shape := ⟨3, ![64, 196, 1452]⟩
abbrev S64x196x768 : Shape := ⟨3, ![64, 196, 768]⟩

abbrev nBuf : Space → Nat
  | .hbm => 54
  | .vmem => 0
  | .smem => 0
  | _ => 0

abbrev bufTy : (tb : Table) → Fin (tcTables nBuf tb) → BufTy
  | .hbm, ⟨0, _⟩ => ⟨S64x224x224x3, .f32⟩
  | .hbm, ⟨1, _⟩ => ⟨S1452x768, .f32⟩
  | .hbm, ⟨2, _⟩ => ⟨S308, .i32⟩
  | .hbm, ⟨3, _⟩ => ⟨S_, .i32⟩
  | .hbm, ⟨4, _⟩ => ⟨S308, .i32⟩
  | .hbm, ⟨5, _⟩ => ⟨S308, .i1⟩
  | .hbm, ⟨6, _⟩ => ⟨S_, .i32⟩
  | .hbm, ⟨7, _⟩ => ⟨S308, .i32⟩
  | .hbm, ⟨8, _⟩ => ⟨S308, .i32⟩
  | .hbm, ⟨9, _⟩ => ⟨S308, .i32⟩
  | .hbm, ⟨10, _⟩ => ⟨S308x1, .i32⟩
  | .hbm, ⟨11, _⟩ => ⟨S1, .i32⟩
  | .hbm, ⟨12, _⟩ => ⟨S_, .i32⟩
  | .hbm, ⟨13, _⟩ => ⟨S308x1, .i32⟩
  | .hbm, ⟨14, _⟩ => ⟨S308x1, .i1⟩
  | .hbm, ⟨15, _⟩ => ⟨S1x1, .i32⟩
  | .hbm, ⟨16, _⟩ => ⟨S308x1, .i32⟩
  | .hbm, ⟨17, _⟩ => ⟨S308x1, .i1⟩
  | .hbm, ⟨18, _⟩ => ⟨S308x1, .i1⟩
  | .hbm, ⟨19, _⟩ => ⟨S_, .i1⟩
  | .hbm, ⟨20, _⟩ => ⟨S308, .i1⟩
  | .hbm, ⟨21, _⟩ => ⟨S64x308x224x3, .f32⟩
  | .hbm, ⟨22, _⟩ => ⟨S64x308x224x3, .i1⟩
  | .hbm, ⟨23, _⟩ => ⟨S_, .f32⟩
  | .hbm, ⟨24, _⟩ => ⟨S64x308x224x3, .f32⟩
  | .hbm, ⟨25, _⟩ => ⟨S64x308x224x3, .f32⟩
  | .hbm, ⟨26, _⟩ => ⟨S64x14x22x224x3, .f32⟩
  | .hbm, ⟨27, _⟩ => ⟨S_, .i32⟩
  | .hbm, ⟨28, _⟩ => ⟨S308, .i32⟩
  | .hbm, ⟨29, _⟩ => ⟨S308, .i1⟩
  | .hbm, ⟨30, _⟩ => ⟨S_, .i32⟩
  | .hbm, ⟨31, _⟩ => ⟨S308, .i32⟩
  | .hbm, ⟨32, _⟩ => ⟨S308, .i32⟩
  | .hbm, ⟨33, _⟩ => ⟨S308, .i32⟩
  | .hbm, ⟨34, _⟩ => ⟨S308x1, .i32⟩
  | .hbm, ⟨35, _⟩ => ⟨S1, .i32⟩
  | .hbm, ⟨36, _⟩ => ⟨S_, .i32⟩
  | .hbm, ⟨37, _⟩ => ⟨S308x1, .i32⟩
  | .hbm, ⟨38, _⟩ => ⟨S308x1, .i1⟩
  | .hbm, ⟨39, _⟩ => ⟨S1x1, .i32⟩
  | .hbm, ⟨40, _⟩ => ⟨S308x1, .i32⟩
  | .hbm, ⟨41, _⟩ => ⟨S308x1, .i1⟩
  | .hbm, ⟨42, _⟩ => ⟨S308x1, .i1⟩
  | .hbm, ⟨43, _⟩ => ⟨S_, .i1⟩
  | .hbm, ⟨44, _⟩ => ⟨S308, .i1⟩
  | .hbm, ⟨45, _⟩ => ⟨S64x14x22x308x3, .f32⟩
  | .hbm, ⟨46, _⟩ => ⟨S64x14x22x308x3, .i1⟩
  | .hbm, ⟨47, _⟩ => ⟨S_, .f32⟩
  | .hbm, ⟨48, _⟩ => ⟨S64x14x22x308x3, .f32⟩
  | .hbm, ⟨49, _⟩ => ⟨S64x14x22x308x3, .f32⟩
  | .hbm, ⟨50, _⟩ => ⟨S64x14x22x14x22x3, .f32⟩
  | .hbm, ⟨51, _⟩ => ⟨S64x14x14x22x22x3, .f32⟩
  | .hbm, ⟨52, _⟩ => ⟨S64x196x1452, .f32⟩
  | .hbm, ⟨53, _⟩ => ⟨S64x196x768, .f32⟩
  | _, _ => ⟨S64x224x224x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v2 : Ref sig .tc := ⟨.hbm, 49, rfl⟩
abbrev main_v3 : Ref sig .tc := ⟨.hbm, 50, rfl⟩
abbrev main_v4 : Ref sig .tc := ⟨.hbm, 51, rfl⟩
abbrev main_v5 : Ref sig .tc := ⟨.hbm, 52, rfl⟩
abbrev main_v6 : Ref sig .tc := ⟨.hbm, 53, rfl⟩

abbrev nD : Nat := 1
abbrev τ : Topo := Topo.v7x

variable {F : FTy → Type} [FloatOps F]

class Facts₀ : Prop where
  bcast_S_S308 : S_.BroadcastsInDim S308 (![] : Fin 0 → Fin S308.rank)
  bcast_S308_S308x1_0 : S308.BroadcastsInDim S308x1 (![0] : Fin 1 → Fin S308x1.rank)
  bcast_S_S308x1 : S_.BroadcastsInDim S308x1 (![] : Fin 0 → Fin S308x1.rank)
  bcast_S1_S1x1_1 : S1.BroadcastsInDim S1x1 (![1] : Fin 1 → Fin S1x1.rank)
  bcast_S1x1_S308x1_0_1 : S1x1.BroadcastsInDim S308x1 (![0, 1] : Fin 2 → Fin S308x1.rank)
  reducesTo_S308x1_S308_d1 : S308x1.ReducesTo [1] S308
  h_S_ : 0 < S_.numel
  bcast_S308_S64x308x224x3_1 : S308.BroadcastsInDim S64x308x224x3 (![1] : Fin 1 → Fin S64x308x224x3.rank)
  bcast_S_S64x308x224x3 : S_.BroadcastsInDim S64x308x224x3 (![] : Fin 0 → Fin S64x308x224x3.rank)
  shapeCasts_S64x308x224x3_S64x14x22x224x3 : S64x308x224x3.ShapeCasts S64x14x22x224x3
  bcast_S308_S64x14x22x308x3_3 : S308.BroadcastsInDim S64x14x22x308x3 (![3] : Fin 1 → Fin S64x14x22x308x3.rank)
  bcast_S_S64x14x22x308x3 : S_.BroadcastsInDim S64x14x22x308x3 (![] : Fin 0 → Fin S64x14x22x308x3.rank)
  shapeCasts_S64x14x22x308x3_S64x14x22x14x22x3 : S64x14x22x308x3.ShapeCasts S64x14x22x14x22x3
  transposes_S64x14x22x14x22x3_S64x14x14x22x22x3_0_1_3_2_4_5 : S64x14x22x14x22x3.Transposes [0, 1, 3, 2, 4, 5] S64x14x14x22x22x3
  shapeCasts_S64x14x14x22x22x3_S64x196x1452 : S64x14x14x22x22x3.ShapeCasts S64x196x1452
  gather_S64x224x224x3_S308x1_S64x308x224x3_023_1_n_n_1_1_6412243_wf : GatherDims.WF S64x224x224x3 S308x1 S64x308x224x3 [0, 2, 3] [1] [] [1] [] 1 ![64, 1, 224, 3]
  gather_S64x14x22x224x3_S308x1_S64x14x22x308x3_0124_3_n_n_3_1_64142213_wf : GatherDims.WF S64x14x22x224x3 S308x1 S64x14x22x308x3 [0, 1, 2, 4] [3] [] [3] [] 1 ![64, 14, 22, 1, 3]
  dot_S64x196x1452_S1452x768_S64x196x768_2_0_01_1_n_n_wf : DotDims.WF S64x196x1452 S1452x768 S64x196x768 [2] [0] [0, 1] [1] [] []

variable [Facts₀]

def gather_S64x224x224x3_S308x1_S64x308x224x3_023_1_n_n_1_1_6412243 : GatherDims S64x224x224x3 S308x1 S64x308x224x3 where
  offsetDims := [0, 2, 3]
  collapsedSliceDims := [1]
  operandBatchingDims := []
  startIndicesBatchingDims := []
  startIndexMap := [1]
  indexVectorDim := 1
  sliceSizes := ![64, 1, 224, 3]
  wf := gather_S64x224x224x3_S308x1_S64x308x224x3_023_1_n_n_1_1_6412243_wf
def gather_S64x14x22x224x3_S308x1_S64x14x22x308x3_0124_3_n_n_3_1_64142213 : GatherDims S64x14x22x224x3 S308x1 S64x14x22x308x3 where
  offsetDims := [0, 1, 2, 4]
  collapsedSliceDims := [3]
  operandBatchingDims := []
  startIndicesBatchingDims := []
  startIndexMap := [3]
  indexVectorDim := 1
  sliceSizes := ![64, 14, 22, 1, 3]
  wf := gather_S64x14x22x224x3_S308x1_S64x14x22x308x3_0124_3_n_n_3_1_64142213_wf
def dot_S64x196x1452_S1452x768_S64x196x768_2_0_01_1_n_n : DotDims S64x196x1452 S1452x768 S64x196x768 where
  lhsContracting := [2]
  rhsContracting := [0]
  lhsNonContracting := [0, 1]
  rhsNonContracting := [1]
  lhsBatch := []
  rhsBatch := []
  wf := dot_S64x196x1452_S1452x768_S64x196x768_2_0_01_1_n_n_wf

class Facts : Prop extends Facts₀ where

variable [Facts]
-- ==== Proof.Patches.lean ====
/-
  The overlapping-window patch projection, as one function of the two argument arrays.

  An image of 224 x 224 pixels with 3 channels is cut into a 14 x 14 grid of windows, each 22 x 22 pixels: window
  `p` along an axis starts at pixel `16 p - 3`, moved inside the image at the two edges, that is at
  `min (16 p - 3) 202` in truncated natural-number arithmetic (0, 13, 29, ..., 189, 202). Window `(p, q)` of image
  `b`, flattened row-major over (row in window, column in window, channel), is a vector of 1452 = 22 * 22 * 3
  numbers, and the result is its product with the 1452 x 768 weight matrix:

    out[b, 14 p + q, d] = sum over f < 1452 of x[b, start p + f / 66, start q + f / 3 % 22, f % 3] * W[f, d].

  Every number is an extended real; only commutativity and associativity of the sum are ever used, so no
  finiteness of the inputs is needed.
-/
import Idealize.ShloMosaic.PureOps.Ideal
import Idealize.ShloMosaic.Lib.ValueIdx

noncomputable section

namespace Cert.Patches

open Idealize.ShloMosaic Idealize.ShloMosaic.ValueIdx

/-- The first pixel of window `p` along an axis: `16 p - 3` kept inside `[0, 202]`. -/
def start (p : Nat) : Nat := min (16 * p - 3) 202

theorem start_le (p : Nat) : start p ≤ 202 := by unfold start; omega

/-- The pixel row that entry `f` of the flattened window `n = 14 p + q` reads: row `f / 66` of window `p`. -/
def row (n : Fin 196) (f : Fin 1452) : Fin 224 :=
  ⟨start (n.val / 14) + f.val / 66, by have := start_le (n.val / 14); have := f.isLt; omega⟩

/-- The pixel column that entry `f` of the flattened window `n = 14 p + q` reads: column `f / 3 % 22` of window `q`. -/
def col (n : Fin 196) (f : Fin 1452) : Fin 224 :=
  ⟨start (n.val % 14) + f.val / 3 % 22, by have := start_le (n.val % 14); omega⟩

/-- The channel that entry `f` of a flattened window reads. -/
def chan (f : Fin 1452) : Fin 3 := ⟨f.val % 3, by omega⟩

theorem row_val (n : Fin 196) (f : Fin 1452) : (row n f).val = start (n.val / 14) + f.val / 66 := rfl
theorem col_val (n : Fin 196) (f : Fin 1452) : (col n f).val = start (n.val % 14) + f.val / 3 % 22 := rfl
theorem chan_val (f : Fin 1452) : (chan f).val = f.val % 3 := rfl

/-- One entry of the result: window `n` of image `b` against column `d` of the weights. -/
def entry (x : FVec Ideal ⟨4, ![64, 224, 224, 3]⟩ .f32) (W : FVec Ideal ⟨2, ![1452, 768]⟩ .f32)
    (b : Fin 64) (n : Fin 196) (d : Fin 768) : EReal :=
  ∑ f : Fin 1452, x (ix4 b (row n f) (col n f) (chan f)) * W (ix2 f d)

/-- The whole result array. -/
def G (x : FVec Ideal ⟨4, ![64, 224, 224, 3]⟩ .f32) (W : FVec Ideal ⟨2, ![1452, 768]⟩ .f32) :
    FVec Ideal ⟨3, ![64, 196, 768]⟩ .f32 :=
  fun i => entry x W (i 0) (i 1) (i 2)

theorem G_apply (x : FVec Ideal ⟨4, ![64, 224, 224, 3]⟩ .f32) (W : FVec Ideal ⟨2, ![1452, 768]⟩ .f32)
    (b : Fin 64) (n : Fin 196) (d : Fin 768) : G x W (ix3 b n d) = entry x W b n d := rfl

end Cert.Patches

end
-- ==== Proof.KernelWindows.lean ====
/-
  The block of windows a grid point builds, read at an index.

  A grid point holds four images, an array X of shape [4, 224, 224, 3]. Its body cuts fourteen slabs of 22 pixel
  rows, slab p starting at row offs p = 0, 13, 29, ..., 189, 202, and stacks them along a new axis:
      rows[b, p, h, w, c] = X[b, offs p + h, w, c].
  Of that it cuts fourteen slabs of 22 pixel columns at the same offsets and stacks them behind the first window axis:
      wins[b, p, q, h, w, c] = rows[b, p, h, offs q + w, c] = X[b, offs p + h, offs q + w, c].
  Flattened row-major to [784, 1452], row r = 196 b + n and column f, this is
      X[b, start (n / 14) + f / 66, start (n % 14) + f / 3 % 22, f % 3],
  the entry that the specification's `row`, `col` and `chan` name (offs p is start p for p < 14).
  These are statements about re-laying values: they hold for any element values.
-/
import proofs.«157099_j38044820308624_2_alg».proof.Proof.Gen.KernelIdeal.Frame
import proofs.«157099_j38044820308624_2_alg».proof.Proof.Patches
import Idealize.ShloMosaic.Lib.Pipeline.Value
import Idealize.ShloMosaic.Lib.ValueLayout
import Idealize.ShloMosaic.Lib.ValueIdxRank6

noncomputable section

namespace Cert.KernelIdeal.Windows

open Cert.KernelIdeal Cert.KernelIdeal.Gen Idealize.ShloMosaic Idealize.ShloMosaic.ValueIdx

variable {α : Type} {F : FTy → Type} [FloatOps F]

/-- The first pixel of each of the fourteen windows along an axis, as the body's literal offsets. -/
def offs : Fin 14 → Nat := ![0, 13, 29, 45, 61, 77, 93, 109, 125, 141, 157, 173, 189, 202]

/-- The literal offsets are the specification's `start`: 16 p - 3 kept inside [0, 202]. -/
theorem offs_eq : ∀ p : Fin 14, offs p = Cert.Patches.start p.val := by decide

/-- One slab of 22 pixel rows starting at row `o`, given a unit window axis: entry (b, 0, h, w, c) is X[b, o + h, w, c]. -/
theorem slab_apply (X : Vec F S4x224x224x3 .f32) (o : Nat) (inb : ∀ a, (![0, o, 0, 0] : Fin 4 → Nat) a + S4x22x224x3.size a ≤ S4x224x224x3.size a)
    (sc : S4x22x224x3.ShapeCasts S4x1x22x224x3)
    (b : Fin 4) (z : Fin 1) (h : Fin 22) (w : Fin 224) (c : Fin 3) (k : Fin 224) (hk : k.val = o + h.val) :
    shapeCast S4x1x22x224x3 (View.ld X (Rect.unit (s := S4x224x224x3) ![0, o, 0, 0] S4x22x224x3.size inb)) sc (ix5 b z h w c)
      = X (ix4 b k w c) := by
  refine (shapeCast_apply _ sc (ix5 b z h w c) (ix4 b h w c) ?_).trans ?_
  · rw [Shape.rowMajor_val_four, Shape.rowMajor_val_five]
    have hz : z.val = 0 := by omega
    show ((b.val * 22 + h.val) * 224 + w.val) * 3 + c.val = (((b.val * 1 + z.val) * 22 + h.val) * 224 + w.val) * 3 + c.val
    omega
  · show X _ = X _
    refine congrArg X (funext fun a => Fin.ext ?_)
    match a with
    | ⟨0, _⟩ => show 0 + 1 * b.val = b.val; omega
    | ⟨1, _⟩ => show o + 1 * h.val = k.val; omega
    | ⟨2, _⟩ => show 0 + 1 * w.val = w.val; omega
    | ⟨3, _⟩ => show 0 + 1 * c.val = c.val; omega

/-- One slab of 22 pixel columns starting at column `o`, given a unit window axis: entry (b, p, 0, h, w, c) is
    Y[b, p, h, o + w, c]. -/
theorem colSlab_apply (Y : FVec F S4x14x22x224x3 .f32) (o : Nat) (hs : S4x14x22x224x3.Slices ![0, 0, 0, o, 0] S4x14x22x22x3)
    (sc : S4x14x22x22x3.ShapeCasts S4x14x1x22x22x3)
    (b : Fin 4) (p : Fin 14) (z : Fin 1) (h : Fin 22) (w : Fin 22) (c : Fin 3) (k : Fin 224) (hk : k.val = o + w.val) :
    shapeCast S4x14x1x22x22x3 (extractStridedSlice S4x14x22x22x3 ![0, 0, 0, o, 0] Y hs) sc (ix6 b p z h w c)
      = Y (ix5 b p h k c) := by
  refine (shapeCast_apply _ sc (ix6 b p z h w c) (ix5 b p h w c) ?_).trans (slice5_axis3_apply o Y hs b p h w c k hk)
  rw [Shape.rowMajor_val_five, Shape.rowMajor_val_six]
  have hz : z.val = 0 := by omega
  show (((b.val * 14 + p.val) * 22 + h.val) * 22 + w.val) * 3 + c.val
    = ((((b.val * 14 + p.val) * 1 + z.val) * 22 + h.val) * 22 + w.val) * 3 + c.val
  omega

/-- A concatenation of fourteen pieces of one shape, each of extent 1 along the axis, read at an index: the piece the
    axis coordinate names, at the index with the other coordinates. -/
theorem concat14_unit {t s₁ : Shape} (a : Fin t.rank) (g : Fin 14 → (s₁.Idx → α))
    (h : Shape.Concatenates (([⟨s₁, g 0⟩, ⟨s₁, g 1⟩, ⟨s₁, g 2⟩, ⟨s₁, g 3⟩, ⟨s₁, g 4⟩, ⟨s₁, g 5⟩, ⟨s₁, g 6⟩, ⟨s₁, g 7⟩, ⟨s₁, g 8⟩, ⟨s₁, g 9⟩, ⟨s₁, g 10⟩, ⟨s₁, g 11⟩, ⟨s₁, g 12⟩, ⟨s₁, g 13⟩] : List ((s : Shape) × (s.Idx → α))).map (·.1)) t a)
    (hr : s₁.rank = t.rank) (h1 : s₁.size (a.cast hr.symm) = 1) (j : t.Idx) (n : Fin 14) (hn : (j a).val = n.val)
    (i : s₁.Idx) (hi : ∀ b : Fin s₁.rank, b.cast hr ≠ a → (i b).val = (j (b.cast hr)).val) :
    concatenate t a [⟨s₁, g 0⟩, ⟨s₁, g 1⟩, ⟨s₁, g 2⟩, ⟨s₁, g 3⟩, ⟨s₁, g 4⟩, ⟨s₁, g 5⟩, ⟨s₁, g 6⟩, ⟨s₁, g 7⟩, ⟨s₁, g 8⟩, ⟨s₁, g 9⟩, ⟨s₁, g 10⟩, ⟨s₁, g 11⟩, ⟨s₁, g 12⟩, ⟨s₁, g 13⟩] h j = g n i :=
  concatenate_ofFn_unit_apply a g h hr h1 j n hn i hi

/-- The fourteen row slabs of a block. -/
def rowPiece (X : Vec F S4x224x224x3 .f32) : Fin 14 → FVec F S4x1x22x224x3 .f32 :=
  ![shapeCast S4x1x22x224x3 (View.ld X r0_0) shapeCasts_S4x22x224x3_S4x1x22x224x3,
    shapeCast S4x1x22x224x3 (View.ld X r0_1) shapeCasts_S4x22x224x3_S4x1x22x224x3,
    shapeCast S4x1x22x224x3 (View.ld X r0_2) shapeCasts_S4x22x224x3_S4x1x22x224x3,
    shapeCast S4x1x22x224x3 (View.ld X r0_3) shapeCasts_S4x22x224x3_S4x1x22x224x3,
    shapeCast S4x1x22x224x3 (View.ld X r0_4) shapeCasts_S4x22x224x3_S4x1x22x224x3,
    shapeCast S4x1x22x224x3 (View.ld X r0_5) shapeCasts_S4x22x224x3_S4x1x22x224x3,
    shapeCast S4x1x22x224x3 (View.ld X r0_6) shapeCasts_S4x22x224x3_S4x1x22x224x3,
    shapeCast S4x1x22x224x3 (View.ld X r0_7) shapeCasts_S4x22x224x3_S4x1x22x224x3,
    shapeCast S4x1x22x224x3 (View.ld X r0_8) shapeCasts_S4x22x224x3_S4x1x22x224x3,
    shapeCast S4x1x22x224x3 (View.ld X r0_9) shapeCasts_S4x22x224x3_S4x1x22x224x3,
    shapeCast S4x1x22x224x3 (View.ld X r0_10) shapeCasts_S4x22x224x3_S4x1x22x224x3,
    shapeCast S4x1x22x224x3 (View.ld X r0_11) shapeCasts_S4x22x224x3_S4x1x22x224x3,
    shapeCast S4x1x22x224x3 (View.ld X r0_12) shapeCasts_S4x22x224x3_S4x1x22x224x3,
    shapeCast S4x1x22x224x3 (View.ld X r0_13) shapeCasts_S4x22x224x3_S4x1x22x224x3]

theorem rowPiece_apply (X : Vec F S4x224x224x3 .f32) (p : Fin 14) (b : Fin 4) (z : Fin 1) (h : Fin 22) (w : Fin 224) (c : Fin 3)
    (k : Fin 224) (hk : k.val = offs p + h.val) : rowPiece X p (ix5 b z h w c) = X (ix4 b k w c) :=
  match p with
  | ⟨0, _⟩ => slab_apply X 0 inb_S4x224x224x3_S4x22x224x3_0_0_0_0 shapeCasts_S4x22x224x3_S4x1x22x224x3 b z h w c k hk
  | ⟨1, _⟩ => slab_apply X 13 inb_S4x224x224x3_S4x22x224x3_0_13_0_0 shapeCasts_S4x22x224x3_S4x1x22x224x3 b z h w c k hk
  | ⟨2, _⟩ => slab_apply X 29 inb_S4x224x224x3_S4x22x224x3_0_29_0_0 shapeCasts_S4x22x224x3_S4x1x22x224x3 b z h w c k hk
  | ⟨3, _⟩ => slab_apply X 45 inb_S4x224x224x3_S4x22x224x3_0_45_0_0 shapeCasts_S4x22x224x3_S4x1x22x224x3 b z h w c k hk
  | ⟨4, _⟩ => slab_apply X 61 inb_S4x224x224x3_S4x22x224x3_0_61_0_0 shapeCasts_S4x22x224x3_S4x1x22x224x3 b z h w c k hk
  | ⟨5, _⟩ => slab_apply X 77 inb_S4x224x224x3_S4x22x224x3_0_77_0_0 shapeCasts_S4x22x224x3_S4x1x22x224x3 b z h w c k hk
  | ⟨6, _⟩ => slab_apply X 93 inb_S4x224x224x3_S4x22x224x3_0_93_0_0 shapeCasts_S4x22x224x3_S4x1x22x224x3 b z h w c k hk
  | ⟨7, _⟩ => slab_apply X 109 inb_S4x224x224x3_S4x22x224x3_0_109_0_0 shapeCasts_S4x22x224x3_S4x1x22x224x3 b z h w c k hk
  | ⟨8, _⟩ => slab_apply X 125 inb_S4x224x224x3_S4x22x224x3_0_125_0_0 shapeCasts_S4x22x224x3_S4x1x22x224x3 b z h w c k hk
  | ⟨9, _⟩ => slab_apply X 141 inb_S4x224x224x3_S4x22x224x3_0_141_0_0 shapeCasts_S4x22x224x3_S4x1x22x224x3 b z h w c k hk
  | ⟨10, _⟩ => slab_apply X 157 inb_S4x224x224x3_S4x22x224x3_0_157_0_0 shapeCasts_S4x22x224x3_S4x1x22x224x3 b z h w c k hk
  | ⟨11, _⟩ => slab_apply X 173 inb_S4x224x224x3_S4x22x224x3_0_173_0_0 shapeCasts_S4x22x224x3_S4x1x22x224x3 b z h w c k hk
  | ⟨12, _⟩ => slab_apply X 189 inb_S4x224x224x3_S4x22x224x3_0_189_0_0 shapeCasts_S4x22x224x3_S4x1x22x224x3 b z h w c k hk
  | ⟨13, _⟩ => slab_apply X 202 inb_S4x224x224x3_S4x22x224x3_0_202_0_0 shapeCasts_S4x22x224x3_S4x1x22x224x3 b z h w c k hk

/-- The row slabs stacked: rows[b, p, h, w, c] = X[b, offs p + h, w, c]. -/
def rowsStack (X : Vec F S4x224x224x3 .f32) : FVec F S4x14x22x224x3 .f32 :=
  concatenate S4x14x22x224x3 1
    [⟨S4x1x22x224x3, shapeCast S4x1x22x224x3 (View.ld X r0_0) shapeCasts_S4x22x224x3_S4x1x22x224x3⟩,
    ⟨S4x1x22x224x3, shapeCast S4x1x22x224x3 (View.ld X r0_1) shapeCasts_S4x22x224x3_S4x1x22x224x3⟩,
    ⟨S4x1x22x224x3, shapeCast S4x1x22x224x3 (View.ld X r0_2) shapeCasts_S4x22x224x3_S4x1x22x224x3⟩,
    ⟨S4x1x22x224x3, shapeCast S4x1x22x224x3 (View.ld X r0_3) shapeCasts_S4x22x224x3_S4x1x22x224x3⟩,
    ⟨S4x1x22x224x3, shapeCast S4x1x22x224x3 (View.ld X r0_4) shapeCasts_S4x22x224x3_S4x1x22x224x3⟩,
    ⟨S4x1x22x224x3, shapeCast S4x1x22x224x3 (View.ld X r0_5) shapeCasts_S4x22x224x3_S4x1x22x224x3⟩,
    ⟨S4x1x22x224x3, shapeCast S4x1x22x224x3 (View.ld X r0_6) shapeCasts_S4x22x224x3_S4x1x22x224x3⟩,
    ⟨S4x1x22x224x3, shapeCast S4x1x22x224x3 (View.ld X r0_7) shapeCasts_S4x22x224x3_S4x1x22x224x3⟩,
    ⟨S4x1x22x224x3, shapeCast S4x1x22x224x3 (View.ld X r0_8) shapeCasts_S4x22x224x3_S4x1x22x224x3⟩,
    ⟨S4x1x22x224x3, shapeCast S4x1x22x224x3 (View.ld X r0_9) shapeCasts_S4x22x224x3_S4x1x22x224x3⟩,
    ⟨S4x1x22x224x3, shapeCast S4x1x22x224x3 (View.ld X r0_10) shapeCasts_S4x22x224x3_S4x1x22x224x3⟩,
    ⟨S4x1x22x224x3, shapeCast S4x1x22x224x3 (View.ld X r0_11) shapeCasts_S4x22x224x3_S4x1x22x224x3⟩,
    ⟨S4x1x22x224x3, shapeCast S4x1x22x224x3 (View.ld X r0_12) shapeCasts_S4x22x224x3_S4x1x22x224x3⟩,
    ⟨S4x1x22x224x3, shapeCast S4x1x22x224x3 (View.ld X r0_13) shapeCasts_S4x22x224x3_S4x1x22x224x3⟩]
    concatenates_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x14x22x224x3_d1

theorem rowsStack_apply (X : Vec F S4x224x224x3 .f32) (b : Fin 4) (p : Fin 14) (h : Fin 22) (w : Fin 224) (c : Fin 3)
    (k : Fin 224) (hk : k.val = offs p + h.val) : rowsStack X (ix5 b p h w c) = X (ix4 b k w c) := by
  show concatenate S4x14x22x224x3 1 [⟨S4x1x22x224x3, rowPiece X 0⟩, ⟨S4x1x22x224x3, rowPiece X 1⟩, ⟨S4x1x22x224x3, rowPiece X 2⟩, ⟨S4x1x22x224x3, rowPiece X 3⟩, ⟨S4x1x22x224x3, rowPiece X 4⟩, ⟨S4x1x22x224x3, rowPiece X 5⟩, ⟨S4x1x22x224x3, rowPiece X 6⟩, ⟨S4x1x22x224x3, rowPiece X 7⟩, ⟨S4x1x22x224x3, rowPiece X 8⟩, ⟨S4x1x22x224x3, rowPiece X 9⟩, ⟨S4x1x22x224x3, rowPiece X 10⟩, ⟨S4x1x22x224x3, rowPiece X 11⟩, ⟨S4x1x22x224x3, rowPiece X 12⟩, ⟨S4x1x22x224x3, rowPiece X 13⟩] concatenates_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x14x22x224x3_d1 (ix5 b p h w c) = _
  refine (concat14_unit (t := S4x14x22x224x3) (s₁ := S4x1x22x224x3) (1 : Fin 5) (rowPiece X) concatenates_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x1x22x224x3_S4x14x22x224x3_d1 rfl rfl
    (ix5 b p h w c) p rfl (ix5 b (0 : Fin 1) h w c) ?_).trans (rowPiece_apply X p b 0 h w c k hk)
  intro a ha
  match a with
  | ⟨0, _⟩ => rfl
  | ⟨1, _⟩ => exact absurd rfl ha
  | ⟨2, _⟩ => rfl
  | ⟨3, _⟩ => rfl
  | ⟨4, _⟩ => rfl

/-- The fourteen column slabs of a stack of row slabs. -/
def colPiece (Y : FVec F S4x14x22x224x3 .f32) : Fin 14 → FVec F S4x14x1x22x22x3 .f32 :=
  ![shapeCast S4x14x1x22x22x3 (extractStridedSlice S4x14x22x22x3 ![0, 0, 0, 0, 0] Y slices_S4x14x22x224x3_o0_0_0_0_0_S4x14x22x22x3) shapeCasts_S4x14x22x22x3_S4x14x1x22x22x3,
    shapeCast S4x14x1x22x22x3 (extractStridedSlice S4x14x22x22x3 ![0, 0, 0, 13, 0] Y slices_S4x14x22x224x3_o0_0_0_13_0_S4x14x22x22x3) shapeCasts_S4x14x22x22x3_S4x14x1x22x22x3,
    shapeCast S4x14x1x22x22x3 (extractStridedSlice S4x14x22x22x3 ![0, 0, 0, 29, 0] Y slices_S4x14x22x224x3_o0_0_0_29_0_S4x14x22x22x3) shapeCasts_S4x14x22x22x3_S4x14x1x22x22x3,
    shapeCast S4x14x1x22x22x3 (extractStridedSlice S4x14x22x22x3 ![0, 0, 0, 45, 0] Y slices_S4x14x22x224x3_o0_0_0_45_0_S4x14x22x22x3) shapeCasts_S4x14x22x22x3_S4x14x1x22x22x3,
    shapeCast S4x14x1x22x22x3 (extractStridedSlice S4x14x22x22x3 ![0, 0, 0, 61, 0] Y slices_S4x14x22x224x3_o0_0_0_61_0_S4x14x22x22x3) shapeCasts_S4x14x22x22x3_S4x14x1x22x22x3,
    shapeCast S4x14x1x22x22x3 (extractStridedSlice S4x14x22x22x3 ![0, 0, 0, 77, 0] Y slices_S4x14x22x224x3_o0_0_0_77_0_S4x14x22x22x3) shapeCasts_S4x14x22x22x3_S4x14x1x22x22x3,
    shapeCast S4x14x1x22x22x3 (extractStridedSlice S4x14x22x22x3 ![0, 0, 0, 93, 0] Y slices_S4x14x22x224x3_o0_0_0_93_0_S4x14x22x22x3) shapeCasts_S4x14x22x22x3_S4x14x1x22x22x3,
    shapeCast S4x14x1x22x22x3 (extractStridedSlice S4x14x22x22x3 ![0, 0, 0, 109, 0] Y slices_S4x14x22x224x3_o0_0_0_109_0_S4x14x22x22x3) shapeCasts_S4x14x22x22x3_S4x14x1x22x22x3,
    shapeCast S4x14x1x22x22x3 (extractStridedSlice S4x14x22x22x3 ![0, 0, 0, 125, 0] Y slices_S4x14x22x224x3_o0_0_0_125_0_S4x14x22x22x3) shapeCasts_S4x14x22x22x3_S4x14x1x22x22x3,
    shapeCast S4x14x1x22x22x3 (extractStridedSlice S4x14x22x22x3 ![0, 0, 0, 141, 0] Y slices_S4x14x22x224x3_o0_0_0_141_0_S4x14x22x22x3) shapeCasts_S4x14x22x22x3_S4x14x1x22x22x3,
    shapeCast S4x14x1x22x22x3 (extractStridedSlice S4x14x22x22x3 ![0, 0, 0, 157, 0] Y slices_S4x14x22x224x3_o0_0_0_157_0_S4x14x22x22x3) shapeCasts_S4x14x22x22x3_S4x14x1x22x22x3,
    shapeCast S4x14x1x22x22x3 (extractStridedSlice S4x14x22x22x3 ![0, 0, 0, 173, 0] Y slices_S4x14x22x224x3_o0_0_0_173_0_S4x14x22x22x3) shapeCasts_S4x14x22x22x3_S4x14x1x22x22x3,
    shapeCast S4x14x1x22x22x3 (extractStridedSlice S4x14x22x22x3 ![0, 0, 0, 189, 0] Y slices_S4x14x22x224x3_o0_0_0_189_0_S4x14x22x22x3) shapeCasts_S4x14x22x22x3_S4x14x1x22x22x3,
    shapeCast S4x14x1x22x22x3 (extractStridedSlice S4x14x22x22x3 ![0, 0, 0, 202, 0] Y slices_S4x14x22x224x3_o0_0_0_202_0_S4x14x22x22x3) shapeCasts_S4x14x22x22x3_S4x14x1x22x22x3]

theorem colPiece_apply (Y : FVec F S4x14x22x224x3 .f32) (q : Fin 14) (b : Fin 4) (p : Fin 14) (z : Fin 1) (h : Fin 22) (w : Fin 22) (c : Fin 3)
    (k : Fin 224) (hk : k.val = offs q + w.val) : colPiece Y q (ix6 b p z h w c) = Y (ix5 b p h k c) :=
  match q with
  | ⟨0, _⟩ => colSlab_apply Y 0 slices_S4x14x22x224x3_o0_0_0_0_0_S4x14x22x22x3 shapeCasts_S4x14x22x22x3_S4x14x1x22x22x3 b p z h w c k hk
  | ⟨1, _⟩ => colSlab_apply Y 13 slices_S4x14x22x224x3_o0_0_0_13_0_S4x14x22x22x3 shapeCasts_S4x14x22x22x3_S4x14x1x22x22x3 b p z h w c k hk
  | ⟨2, _⟩ => colSlab_apply Y 29 slices_S4x14x22x224x3_o0_0_0_29_0_S4x14x22x22x3 shapeCasts_S4x14x22x22x3_S4x14x1x22x22x3 b p z h w c k hk
  | ⟨3, _⟩ => colSlab_apply Y 45 slices_S4x14x22x224x3_o0_0_0_45_0_S4x14x22x22x3 shapeCasts_S4x14x22x22x3_S4x14x1x22x22x3 b p z h w c k hk
  | ⟨4, _⟩ => colSlab_apply Y 61 slices_S4x14x22x224x3_o0_0_0_61_0_S4x14x22x22x3 shapeCasts_S4x14x22x22x3_S4x14x1x22x22x3 b p z h w c k hk
  | ⟨5, _⟩ => colSlab_apply Y 77 slices_S4x14x22x224x3_o0_0_0_77_0_S4x14x22x22x3 shapeCasts_S4x14x22x22x3_S4x14x1x22x22x3 b p z h w c k hk
  | ⟨6, _⟩ => colSlab_apply Y 93 slices_S4x14x22x224x3_o0_0_0_93_0_S4x14x22x22x3 shapeCasts_S4x14x22x22x3_S4x14x1x22x22x3 b p z h w c k hk
  | ⟨7, _⟩ => colSlab_apply Y 109 slices_S4x14x22x224x3_o0_0_0_109_0_S4x14x22x22x3 shapeCasts_S4x14x22x22x3_S4x14x1x22x22x3 b p z h w c k hk
  | ⟨8, _⟩ => colSlab_apply Y 125 slices_S4x14x22x224x3_o0_0_0_125_0_S4x14x22x22x3 shapeCasts_S4x14x22x22x3_S4x14x1x22x22x3 b p z h w c k hk
  | ⟨9, _⟩ => colSlab_apply Y 141 slices_S4x14x22x224x3_o0_0_0_141_0_S4x14x22x22x3 shapeCasts_S4x14x22x22x3_S4x14x1x22x22x3 b p z h w c k hk
  | ⟨10, _⟩ => colSlab_apply Y 157 slices_S4x14x22x224x3_o0_0_0_157_0_S4x14x22x22x3 shapeCasts_S4x14x22x22x3_S4x14x1x22x22x3 b p z h w c k hk
  | ⟨11, _⟩ => colSlab_apply Y 173 slices_S4x14x22x224x3_o0_0_0_173_0_S4x14x22x22x3 shapeCasts_S4x14x22x22x3_S4x14x1x22x22x3 b p z h w c k hk
  | ⟨12, _⟩ => colSlab_apply Y 189 slices_S4x14x22x224x3_o0_0_0_189_0_S4x14x22x22x3 shapeCasts_S4x14x22x22x3_S4x14x1x22x22x3 b p z h w c k hk
  | ⟨13, _⟩ => colSlab_apply Y 202 slices_S4x14x22x224x3_o0_0_0_202_0_S4x14x22x22x3 shapeCasts_S4x14x22x22x3_S4x14x1x22x22x3 b p z h w c k hk

/-- The column slabs stacked: wins[b, p, q, h, w, c] = Y[b, p, h, offs q + w, c]. -/
def colsStack (Y : FVec F S4x14x22x224x3 .f32) : FVec F S4x14x14x22x22x3 .f32 :=
  concatenate S4x14x14x22x22x3 2
    [⟨S4x14x1x22x22x3, shapeCast S4x14x1x22x22x3 (extractStridedSlice S4x14x22x22x3 ![0, 0, 0, 0, 0] Y slices_S4x14x22x224x3_o0_0_0_0_0_S4x14x22x22x3) shapeCasts_S4x14x22x22x3_S4x14x1x22x22x3⟩,
    ⟨S4x14x1x22x22x3, shapeCast S4x14x1x22x22x3 (extractStridedSlice S4x14x22x22x3 ![0, 0, 0, 13, 0] Y slices_S4x14x22x224x3_o0_0_0_13_0_S4x14x22x22x3) shapeCasts_S4x14x22x22x3_S4x14x1x22x22x3⟩,
    ⟨S4x14x1x22x22x3, shapeCast S4x14x1x22x22x3 (extractStridedSlice S4x14x22x22x3 ![0, 0, 0, 29, 0] Y slices_S4x14x22x224x3_o0_0_0_29_0_S4x14x22x22x3) shapeCasts_S4x14x22x22x3_S4x14x1x22x22x3⟩,
    ⟨S4x14x1x22x22x3, shapeCast S4x14x1x22x22x3 (extractStridedSlice S4x14x22x22x3 ![0, 0, 0, 45, 0] Y slices_S4x14x22x224x3_o0_0_0_45_0_S4x14x22x22x3) shapeCasts_S4x14x22x22x3_S4x14x1x22x22x3⟩,
    ⟨S4x14x1x22x22x3, shapeCast S4x14x1x22x22x3 (extractStridedSlice S4x14x22x22x3 ![0, 0, 0, 61, 0] Y slices_S4x14x22x224x3_o0_0_0_61_0_S4x14x22x22x3) shapeCasts_S4x14x22x22x3_S4x14x1x22x22x3⟩,
    ⟨S4x14x1x22x22x3, shapeCast S4x14x1x22x22x3 (extractStridedSlice S4x14x22x22x3 ![0, 0, 0, 77, 0] Y slices_S4x14x22x224x3_o0_0_0_77_0_S4x14x22x22x3) shapeCasts_S4x14x22x22x3_S4x14x1x22x22x3⟩,
    ⟨S4x14x1x22x22x3, shapeCast S4x14x1x22x22x3 (extractStridedSlice S4x14x22x22x3 ![0, 0, 0, 93, 0] Y slices_S4x14x22x224x3_o0_0_0_93_0_S4x14x22x22x3) shapeCasts_S4x14x22x22x3_S4x14x1x22x22x3⟩,
    ⟨S4x14x1x22x22x3, shapeCast S4x14x1x22x22x3 (extractStridedSlice S4x14x22x22x3 ![0, 0, 0, 109, 0] Y slices_S4x14x22x224x3_o0_0_0_109_0_S4x14x22x22x3) shapeCasts_S4x14x22x22x3_S4x14x1x22x22x3⟩,
    ⟨S4x14x1x22x22x3, shapeCast S4x14x1x22x22x3 (extractStridedSlice S4x14x22x22x3 ![0, 0, 0, 125, 0] Y slices_S4x14x22x224x3_o0_0_0_125_0_S4x14x22x22x3) shapeCasts_S4x14x22x22x3_S4x14x1x22x22x3⟩,
    ⟨S4x14x1x22x22x3, shapeCast S4x14x1x22x22x3 (extractStridedSlice S4x14x22x22x3 ![0, 0, 0, 141, 0] Y slices_S4x14x22x224x3_o0_0_0_141_0_S4x14x22x22x3) shapeCasts_S4x14x22x22x3_S4x14x1x22x22x3⟩,
    ⟨S4x14x1x22x22x3, shapeCast S4x14x1x22x22x3 (extractStridedSlice S4x14x22x22x3 ![0, 0, 0, 157, 0] Y slices_S4x14x22x224x3_o0_0_0_157_0_S4x14x22x22x3) shapeCasts_S4x14x22x22x3_S4x14x1x22x22x3⟩,
    ⟨S4x14x1x22x22x3, shapeCast S4x14x1x22x22x3 (extractStridedSlice S4x14x22x22x3 ![0, 0, 0, 173, 0] Y slices_S4x14x22x224x3_o0_0_0_173_0_S4x14x22x22x3) shapeCasts_S4x14x22x22x3_S4x14x1x22x22x3⟩,
    ⟨S4x14x1x22x22x3, shapeCast S4x14x1x22x22x3 (extractStridedSlice S4x14x22x22x3 ![0, 0, 0, 189, 0] Y slices_S4x14x22x224x3_o0_0_0_189_0_S4x14x22x22x3) shapeCasts_S4x14x22x22x3_S4x14x1x22x22x3⟩,
    ⟨S4x14x1x22x22x3, shapeCast S4x14x1x22x22x3 (extractStridedSlice S4x14x22x22x3 ![0, 0, 0, 202, 0] Y slices_S4x14x22x224x3_o0_0_0_202_0_S4x14x22x22x3) shapeCasts_S4x14x22x22x3_S4x14x1x22x22x3⟩]
    concatenates_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x14x22x22x3_d2

theorem colsStack_apply (Y : FVec F S4x14x22x224x3 .f32) (b : Fin 4) (p q : Fin 14) (h w : Fin 22) (c : Fin 3)
    (k : Fin 224) (hk : k.val = offs q + w.val) : colsStack Y (ix6 b p q h w c) = Y (ix5 b p h k c) := by
  show concatenate S4x14x14x22x22x3 2 [⟨S4x14x1x22x22x3, colPiece Y 0⟩, ⟨S4x14x1x22x22x3, colPiece Y 1⟩, ⟨S4x14x1x22x22x3, colPiece Y 2⟩, ⟨S4x14x1x22x22x3, colPiece Y 3⟩, ⟨S4x14x1x22x22x3, colPiece Y 4⟩, ⟨S4x14x1x22x22x3, colPiece Y 5⟩, ⟨S4x14x1x22x22x3, colPiece Y 6⟩, ⟨S4x14x1x22x22x3, colPiece Y 7⟩, ⟨S4x14x1x22x22x3, colPiece Y 8⟩, ⟨S4x14x1x22x22x3, colPiece Y 9⟩, ⟨S4x14x1x22x22x3, colPiece Y 10⟩, ⟨S4x14x1x22x22x3, colPiece Y 11⟩, ⟨S4x14x1x22x22x3, colPiece Y 12⟩, ⟨S4x14x1x22x22x3, colPiece Y 13⟩] concatenates_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x14x22x22x3_d2 (ix6 b p q h w c) = _
  refine (concat14_unit (t := S4x14x14x22x22x3) (s₁ := S4x14x1x22x22x3) (2 : Fin 6) (colPiece Y) concatenates_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x1x22x22x3_S4x14x14x22x22x3_d2 rfl rfl
    (ix6 b p q h w c) q rfl (ix6 b p (0 : Fin 1) h w c) ?_).trans (colPiece_apply Y q b p 0 h w c k hk)
  intro a ha
  match a with
  | ⟨0, _⟩ => rfl
  | ⟨1, _⟩ => rfl
  | ⟨2, _⟩ => exact absurd rfl ha
  | ⟨3, _⟩ => rfl
  | ⟨4, _⟩ => rfl
  | ⟨5, _⟩ => rfl

/-- The block's windows flattened to a [784, 1452] matrix. -/
def patches (X : Vec F S4x224x224x3 .f32) : FVec F S784x1452 .f32 :=
  shapeCast S784x1452 (colsStack (rowsStack X)) shapeCasts_S4x14x14x22x22x3_S784x1452

/-- Row 196 b + n, column f of the flattened windows is the pixel the specification names. -/
theorem patches_apply (X : Vec F S4x224x224x3 .f32) (b : Fin 4) (n : Fin 196) (f : Fin 1452) (r : Fin 784)
    (hr : r.val = b.val * 196 + n.val) :
    patches X (ix2 r f) = X (ix4 b (Cert.Patches.row n f) (Cert.Patches.col n f) (Cert.Patches.chan f)) := by
  have hn := n.isLt
  have hf := f.isLt
  let p : Fin 14 := ⟨n.val / 14, by omega⟩
  let q : Fin 14 := ⟨n.val % 14, by omega⟩
  let h : Fin 22 := ⟨f.val / 66, by omega⟩
  let w : Fin 22 := ⟨f.val / 3 % 22, by omega⟩
  refine (shapeCast_apply _ shapeCasts_S4x14x14x22x22x3_S784x1452 (ix2 r f) (ix6 b p q h w (Cert.Patches.chan f)) ?_).trans ?_
  · rw [Shape.rowMajor_val_two, Shape.rowMajor_val_six]
    show ((((b.val * 14 + n.val / 14) * 14 + n.val % 14) * 22 + f.val / 66) * 22 + f.val / 3 % 22) * 3 + f.val % 3
      = r.val * 1452 + f.val
    omega
  · refine (colsStack_apply (rowsStack X) b p q h w (Cert.Patches.chan f) (Cert.Patches.col n f) ?_).trans
      (rowsStack_apply X b p h (Cert.Patches.col n f) (Cert.Patches.chan f) (Cert.Patches.row n f) ?_)
    · rw [Cert.Patches.col_val, offs_eq q]
    · rw [Cert.Patches.row_val, offs_eq p]

/-- The body's flattened, rounded windows are `patches` of the block (a change of float format kept as written). -/
theorem pay2_eq (X : Vec F S4x224x224x3 .f32) :
    k0_pay2 (View.ld X r0_0) (View.ld X r0_1) (View.ld X r0_2) (View.ld X r0_3) (View.ld X r0_4) (View.ld X r0_5) (View.ld X r0_6)
      (View.ld X r0_7) (View.ld X r0_8) (View.ld X r0_9) (View.ld X r0_10) (View.ld X r0_11) (View.ld X r0_12) (View.ld X r0_13)
      = truncf .bf16 (patches X) bitsLt_bf16_f32 := rfl

end Cert.KernelIdeal.Windows

end
-- ==== Proof.LibPlainDot.lean ====
/-
  A plain matrix product at the ideal values, read at an index.
  For the dimension numbers of an M×K by K×N product (`DotDims.plain M K N`: the left operand contracted on its last axis,
  the right on its first, no batch axis) both the kernel's `tpu.matmul` into a zero accumulator and the host's
  `dot_general` are, at the output index (a, b), the sum over k < K of l(a, k) · r(k, b) on the extended reals.
-/
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The left operand's row is the output's row. -/
theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl

/-- The left operand's column is the contraction index. -/
theorem lhs1 (i : (⟨2, ![M, N]⟩ : Shape).Idx) (q : (DotDims.plain M K N).contr.Idx) :
    ((DotDims.plain M K N).lhsIdx i q 1).val = (q ⟨0, by rw [(DotDims.plain M K N).rank_contr]; exact Nat.one_pos⟩).val :=
  (DotDims.plain M K N).lhsIdx_val_of_single rfl i q

/-- The right operand's row is the contraction index. -/
theorem rhs0 (i : (⟨2, ![M, N]⟩ : Shape).Idx) (q : (DotDims.plain M K N).contr.Idx) :
    ((DotDims.plain M K N).rhsIdx i q 0).val = (q ⟨0, by rw [(DotDims.plain M K N).rank_contr]; exact Nat.one_pos⟩).val :=
  (DotDims.plain M K N).rhsIdx_val_of_single rfl i q

/-- The right operand's column is the output's column. -/
theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- The contraction's sum, re-indexed by k < K. -/
theorem sum_plain {φ₁ φ₂ : FTy} (l : FVec Ideal ⟨2, ![M, K]⟩ φ₁) (r : FVec Ideal ⟨2, ![K, N]⟩ φ₂) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs0 M K N _ _
      | ⟨1, _⟩ => exact (lhs1 M K N _ _).trans hk)
  have er : (DotDims.plain M K N).rhsIdx j ((contrEquiv1 (DotDims.plain M K N) K rfl rfl).symm k) = ix2 k (j 1) :=
    funext fun a => Fin.ext (by
      match a with
      | ⟨0, _⟩ => exact (rhs0 M K N _ _).trans hk
      | ⟨1, _⟩ => exact rhs1 M K N _ _)
  exact congr (congrArg HMul.hMul (congrArg l el)) (congrArg r er)

/-- The kernel's product into a zero accumulator, at an index. -/
theorem matmul_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    matmul (F := Ideal) (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_plain M K N l r j)

/-- The host's product, at an index. -/
theorem dotGeneral_plain {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    Host.dotGeneral (F := Ideal) (DotDims.plain M K N) prec l r j
      = ∑ k : Fin K, l (ix2 (j 0) k) * r (ix2 k (j 1)) :=
  (Ideal.dotGeneral_apply (DotDims.plain M K N) prec .single l r j).trans (sum_plain M K N l r j)

end Cert.LibPlainDot

end
-- ==== Proof.KernelBlock.lean ====
/-
  What a grid point's body leaves in its output block, read at an index.

  The body multiplies the block's flattened windows (784 rows, one per image of the block and window; 1452 columns)
  by the weight block (1452 x 768) into a zero accumulator and stores the product, reshaped to [4, 196, 768], over the
  whole output block. At the ideal values a plain matrix product read at (r, d) is the sum over f < 1452 of
  left(r, f) * right(f, d), a change of float format is the identity, and row r = 196 b + n of the flattened windows
  holds the pixels the specification names. So entry (b, n, d) of the stored block is
      sum over f < 1452 of X[b, row n f, col n f, chan f] * W[f, d].
-/
import proofs.«157099_j38044820308624_2_alg».proof.Proof.KernelWindows
import proofs.«157099_j38044820308624_2_alg».proof.Proof.LibPlainDot
import Idealize.ShloMosaic.PureOps.Ideal.Laws

noncomputable section

namespace Cert.KernelIdeal.Block

open Cert.KernelIdeal Cert.KernelIdeal.Gen Idealize.ShloMosaic Idealize.ShloMosaic.ValueIdx

theorem hz3 : (![0, 0, 0] : Fin 3 → Nat) = fun _ => 0 := funext fun a => by fin_cases a <;> rfl
theorem hz2 : (![0, 0] : Fin 2 → Nat) = fun _ => 0 := funext fun a => by fin_cases a <;> rfl

/-- The product stage: entry (b, n, d) of the reshaped product is row 196 b + n of the left operand against column d
    of the right one. -/
theorem product_apply (A : FVec Ideal S784x1452 .bf16) (B : FVec Ideal S1452x768 .bf16) (b : Fin 4) (n : Fin 196) (d : Fin 768)
    (r : Fin 784) (hr : r.val = b.val * 196 + n.val) :
    k0_pay1 (F := Ideal) A B (ix3 b n d) = ∑ f : Fin 1452, A (ix2 r f) * B (ix2 f d) := by
  unfold k0_pay1
  refine (shapeCast_apply _ shapeCasts_S784x768_S4x196x768 (ix3 b n d) (ix2 r d) ?_).trans ?_
  · rw [Shape.rowMajor_val_two, Shape.rowMajor_val_three]
    show r.val * 768 + d.val = (b.val * 196 + n.val) * 768 + d.val
    omega
  · rw [shapeCast_self]
    exact Cert.LibPlainDot.matmul_plain 784 1452 768 none A B (ix2 r d)

/-- Entry (b, n, d) of what the body stores, from the image block X and the weight block W. -/
theorem out_apply (X : Vec Ideal S4x224x224x3 .f32) (W : FVec Ideal S1452x768 .bf16) (b : Fin 4) (n : Fin 196) (d : Fin 768) :
    out0_2 (F := Ideal) X W (ix3 b n d)
      = ∑ f : Fin 1452, X (ix4 b (Cert.Patches.row n f) (Cert.Patches.col n f) (Cert.Patches.chan f)) * W (ix2 f d) := by
  unfold out0_2
  rw [View.canon_unit_zero hz3, Cert.KernelIdeal.Windows.pay2_eq, View.ld_unit_zero (S := S1452x768) hz2]
  rw [product_apply _ _ b n d ⟨b.val * 196 + n.val, by have := b.isLt; have := n.isLt; omega⟩ rfl]
  refine Finset.sum_congr rfl fun f _ => ?_
  rw [truncf_apply, Cert.KernelIdeal.Windows.patches_apply X b n f _ rfl]

end Cert.KernelIdeal.Block

end
-- ==== Proof.KernelArray.lean ====
/-
  From the blocks to the whole result array.

  Grid point t (of 16) stages images 4 t ... 4 t + 3 and the whole weight matrix, and writes back rows 4 t ... 4 t + 3 of
  the result. The weight matrix the kernel sees is the argument rounded to a narrower float format on the host, which at
  the ideal values is the argument itself. Entry (b, n, d) of the block a point writes is, by the block lemma, the
  specification's sum for image 4 t + b; the sixteen blocks tile the result array; so the array ends holding the
  specification's G of the two arguments.
-/
import proofs.«157099_j38044820308624_2_alg».proof.Proof.Gen.KernelIdeal.Value
import proofs.«157099_j38044820308624_2_alg».proof.Proof.KernelBlock
import Idealize.ShloMosaic.Lib.Pipeline.Value
import Idealize.ShloMosaic.Lib.StableHlo.Run

noncomputable section

namespace Cert.KernelIdeal.Arr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: the image window and the result window move with the point along the batch
    axis, the weight window stays. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The weight matrix as the region finds it: the argument, whose rounding on the host is the identity at the ideal values. -/
theorem V_weights (c : Dev nD) :
    (V m c main_v0 : S1452x768.Idx → EReal) = (m ((c : Thread nD τ).loc main_arg1) : S1452x768.Idx → EReal) := by
  have e : (V m c main_v0 : S1452x768.Idx → EReal)
      = truncf (F := Ideal) .bf16 (m ((c : Thread nD τ).loc main_arg1) : FVec Ideal S1452x768 .f32) bitsLt_bf16_f32 := by
    dsimp only [Gen.V, Gen.hostOps0]; after_results
  exact e

/-- The image block at point t is images 4 t ... 4 t + 3 of the argument. -/
theorem image_block (c : Dev nD) (t : Fin cfg0.N) (b : Fin 4) (i j : Fin 224) (ch : Fin 3) (B : Fin 64) (hB : B.val = 4 * t.val + b.val) :
    (iblk m c 0 t : Vec Ideal S4x224x224x3 .f32) (ix4 b i j ch)
      = (m ((c : Thread nD τ).loc main_arg0) : S64x224x224x3.Idx → EReal) (ix4 B i j ch) := by
  obtain ⟨e0, e1, e2, e3, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 4) * 4 + 1 * b.val = B.val; omega
  | ⟨1, _⟩ => show win0_0.index t (1 : Fin 4) * 224 + 1 * i.val = i.val; omega
  | ⟨2, _⟩ => show win0_0.index t (2 : Fin 4) * 224 + 1 * j.val = j.val; omega
  | ⟨3, _⟩ => show win0_0.index t (3 : Fin 4) * 3 + 1 * ch.val = ch.val; omega

/-- The weight block at every point is the whole weight matrix. -/
theorem weight_block (c : Dev nD) (t : Fin cfg0.N) (f : Fin 1452) (d : Fin 768) :
    (iblk m c 1 t : FVec Ideal S1452x768 .bf16) (ix2 f d)
      = (m ((c : Thread nD τ).loc main_arg1) : S1452x768.Idx → EReal) (ix2 f d) := by
  obtain ⟨-, -, -, -, e4, e5, -⟩ := idx_facts t
  unfold iblk
  rw [View.read_apply]
  show (V m c main_v0 : S1452x768.Idx → EReal) _ = _
  rw [V_weights]
  refine congrArg _ (funext fun a => Fin.ext ?_)
  match a with
  | ⟨0, _⟩ => show win0_1.index t (0 : Fin 2) * 1452 + 1 * f.val = f.val; omega
  | ⟨1, _⟩ => show win0_1.index t (1 : Fin 2) * 768 + 1 * d.val = d.val; omega

/-- The specification's array at an index given by its coordinates. -/
theorem G_at (x : FVec Ideal ⟨4, ![64, 224, 224, 3]⟩ .f32) (W : FVec Ideal ⟨2, ![1452, 768]⟩ .f32)
    (i : (⟨3, ![64, 196, 768]⟩ : Shape).Idx) (B : Fin 64) (n : Fin 196) (d : Fin 768)
    (h0 : (i 0).val = B.val) (h1 : (i 1).val = n.val) (h2 : (i 2).val = d.val) :
    Cert.Patches.G x W i = Cert.Patches.entry x W B n d := by
  have hi : i = ix3 B n d := funext fun a => Fin.ext (by
    match a with
    | ⟨0, _⟩ => exact h0
    | ⟨1, _⟩ => exact h1
    | ⟨2, _⟩ => exact h2)
  rw [hi]; rfl

/-- WHAT POINT t WRITES BACK is block t of the specification's array of the two arguments. -/
theorem flushed_eq (c : Dev nD) (t : Fin cfg0.N) :
    (dats m 0 c).flushed 2 t = ((cfg0.win 2).blk t).view.read (Elt Ideal)
      (Cert.Patches.G (m ((c : Thread nD τ).loc main_arg0)) (m ((c : Thread nD τ).loc main_arg1))) := by
  rw [Cert.KernelIdeal.Value.flushed2]
  funext y
  obtain ⟨-, -, -, -, -, -, e6, e7, e8⟩ := idx_facts t
  have hN : cfg0.N = 16 := N_0
  have ht : t.val < 16 := hN ▸ t.isLt
  have h0 : (y 0).val < 4 := Nat.lt_of_lt_of_le (y 0).isLt ((cfg0.win 2).xsize_le (grid0.coords t) 0)
  have h1 : (y 1).val < 196 := Nat.lt_of_lt_of_le (y 1).isLt ((cfg0.win 2).xsize_le (grid0.coords t) 1)
  have h2 : (y 2).val < 768 := Nat.lt_of_lt_of_le (y 2).isLt ((cfg0.win 2).xsize_le (grid0.coords t) 2)
  have hx : (cfg0.win 2).xinj (grid0.coords t) y = ix3 (⟨(y 0).val, h0⟩ : Fin 4) (⟨(y 1).val, h1⟩ : Fin 196) (⟨(y 2).val, h2⟩ : Fin 768) :=
    funext fun a => by
      match a with
      | ⟨0, _⟩ => rfl
      | ⟨1, _⟩ => rfl
      | ⟨2, _⟩ => rfl
  show out0_2 (iblk m c 0 t) (iblk m c 1 t) ((cfg0.win 2).xinj (grid0.coords t) y) = _
  rw [hx]
  refine (Cert.KernelIdeal.Block.out_apply (iblk m c 0 t) (iblk m c 1 t) ⟨(y 0).val, h0⟩ ⟨(y 1).val, h1⟩ ⟨(y 2).val, h2⟩).trans ?_
  rw [View.read_apply]
  refine ((G_at _ _ _ (⟨4 * t.val + (y 0).val, by omega⟩ : Fin 64) ⟨(y 1).val, h1⟩ ⟨(y 2).val, h2⟩ ?_ ?_ ?_).trans ?_).symm
  · show win0_2.index t (0 : Fin 3) * 4 + 1 * (y 0).val = 4 * t.val + (y 0).val; omega
  · show win0_2.index t (1 : Fin 3) * 196 + 1 * (y 1).val = (y 1).val; omega
  · show win0_2.index t (2 : Fin 3) * 768 + 1 * (y 2).val = (y 2).val; omega
  · unfold Cert.Patches.entry
    refine Finset.sum_congr rfl fun f _ => ?_
    exact congr (congrArg HMul.hMul (image_block m c t ⟨(y 0).val, h0⟩ _ _ _ ⟨4 * t.val + (y 0).val, by omega⟩ rfl).symm)
      (weight_block m c t f ⟨(y 2).val, h2⟩).symm

/-- An index of the result array is in point t's block iff each coordinate is in the block's range on its axis. -/
theorem mem_blk (t : Fin cfg0.N) (i : S64x196x768.Idx) :
    i ∈ ((cfg0.win 2).blk t).view.set ↔ ∀ a : Fin 3, win0_2.index t a * S4x196x768.size a ≤ (i a).val
      ∧ (i a).val < win0_2.index t a * S4x196x768.size a + S4x196x768.size a := by
  show i ∈ ((View.whole main_v1).slice (win0_2.rect t)).set ↔ _
  rw [View.set_slice_whole, Rect.mem_set_unit]
  exact Iff.rfl

/-- Every index of the result array is in the block of the point its image belongs to. -/
theorem cover (i : S64x196x768.Idx) : ∃ t : Fin cfg0.N, (cfg0.win 2).flush t = true ∧ i ∈ ((cfg0.win 2).blk t).view.set := by
  have hN : cfg0.N = 16 := N_0
  have hi0 : (i 0).val < 64 := (i 0).isLt
  have hi1 : (i 1).val < 196 := (i 1).isLt
  have hi2 : (i 2).val < 768 := (i 2).isLt
  let t : Fin cfg0.N := ⟨(i 0).val / 4, by rw [hN]; omega⟩
  obtain ⟨-, -, -, -, -, -, e6, e7, e8⟩ := idx_facts t
  have et : t.val = (i 0).val / 4 := rfl
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 196 ≤ (i 1).val ∧ (i 1).val < win0_2.index t (1 : Fin 3) * 196 + 196; omega
  | ⟨2, _⟩ => show win0_2.index t (2 : Fin 3) * 768 ≤ (i 2).val ∧ (i 2).val < win0_2.index t (2 : Fin 3) * 768 + 768; omega

/-- THE ARRAY after the run is the specification's G of the two arguments. -/
theorem final (c : Dev nD) : (dats m 0 c).arrAt 2 cfg0.N
    = Cert.Patches.G (m ((c : Thread nD τ).loc main_arg0)) (m ((c : Thread nD τ).loc main_arg1)) :=
  (dats m 0 c).arrAt_eq_of_cover 2 _ (fun t _ => flushed_eq m c t) cover

/-- The kernel's run: the result array at G of the arguments, the arguments unchanged. -/
theorem run : θ_run defs (onTc (τ := τ) (main (F := Ideal))) ⟨m, fun _ => 0, ρ⟩ fun r => ∀ c : Dev nD,
      r.2.mem ((c : Thread nD τ).loc main_v1)
        = Cert.Patches.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Arr

end
-- ==== Proof.RefRun.lean ====
/-
  The reference program's run, read back as one function of its two argument arrays.

  @main is a straight line of 52 host operations once its two calls of jnp.take (and, inside each, the call of
  jnp.where) are unfolded at their call sites. Every buffer therefore ends at the fold of the operations' results over
  the launch contents, and at the result buffer that fold is the composed term "out" below:

    table     the 308 source positions, 14 windows of 22 consecutive pixels;
    wrapped   jnp.take's index normalisation (a negative entry is moved up by the axis length 224);
    starts    the same as a column, the form the gather reads its start indices in;
    inRange   the validity mask 0 <= index <= 223, and-reduced over the unit axis;
    takeRows  rows gathered along axis 1, NaN where the mask is off;
    takeCols  the same along axis 3 of the regrouped array;
    patches   regroup, swap the two middle axes, flatten each window to 1452 numbers;
    out       the product with the weight matrix.
-/
import proofs.«157099_j38044820308624_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as functions of the contents -/

/-- The 308 source positions along an axis: entry r is the (r % 22)-th pixel of window r / 22. -/
def table : IVec S308 32 := fun i => lit0 (S308.rowMajor i)

/-- The index normalisation: an entry below zero is moved up by the axis length 224, any other is kept. -/
def wrapped (t : IVec S308 32) : IVec S308 32 :=
  select (cmpi .slt t (broadcastInDim S308 ![] bcast_S_S308 (constantI S_ 32 0#32)))
    (addi t (broadcastInDim S308 ![] bcast_S_S308 (constantI S_ 32 224#32))) t

/-- The normalised positions as a 308 x 1 column: row r holds the start index of result row r. -/
def starts (t : IVec S308 32) : IVec S308x1 32 :=
  broadcastInDim S308x1 ![0] bcast_S308_S308x1_0 (wrapped t)

/-- The validity mask: bit r says 0 <= position r <= 223 (the conjunction over the column's unit axis). -/
def inRange (t : IVec S308 32) : IVec S308 1 :=
  Host.reduce IntOp.andi
    (andi (cmpi .sge (starts t) (broadcastInDim S308x1 ![] bcast_S_S308x1 (constantI S_ 32 0#32)))
      (cmpi .sle (starts t)
        (broadcastInDim S308x1 ![0, 1] bcast_S1x1_S308x1_0_1 (broadcastInDim S1x1 ![1] bcast_S1_S1x1_1 (constantI S1 32 223#32)))))
    (constantI S_ 1 1#1) reducesTo_S308x1_S308_d1 h_S_

/-- Rows taken along axis 1: result row r of every image is source row (position r), or NaN where the mask is off. -/
def takeRows (x : FVec F S64x224x224x3 .f32) : FVec F S64x308x224x3 .f32 :=
  select (broadcastInDim S64x308x224x3 ![1] bcast_S308_S64x308x224x3_1 (inRange table))
    (Host.gather gather_S64x224x224x3_S308x1_S64x308x224x3_023_1_n_n_1_1_6412243 x (starts table))
    (broadcastInDim S64x308x224x3 ![] bcast_S_S64x308x224x3 (constant S_ .f32 0x7FC00000#32))

/-- Columns taken along axis 3 of the regrouped array, in the same way. -/
def takeCols (y : FVec F S64x14x22x224x3 .f32) : FVec F S64x14x22x308x3 .f32 :=
  select (broadcastInDim S64x14x22x308x3 ![3] bcast_S308_S64x14x22x308x3_3 (inRange table))
    (Host.gather gather_S64x14x22x224x3_S308x1_S64x14x22x308x3_0124_3_n_n_3_1_64142213 y (starts table))
    (broadcastInDim S64x14x22x308x3 ![] bcast_S_S64x14x22x308x3 (constant S_ .f32 0x7FC00000#32))

/-- The flattened windows: rows taken and regrouped as (window row, row in window), columns taken and regrouped as
    (window column, column in window), the two middle axes swapped so that a window's own axes are adjacent, then each
    window flattened to 1452 numbers and the 14 x 14 windows to 196. -/
def patches (x : FVec F S64x224x224x3 .f32) : FVec F S64x196x1452 .f32 :=
  shapeCast S64x196x1452
    (transpose S64x14x14x22x22x3 [0, 1, 3, 2, 4, 5]
      (shapeCast S64x14x22x14x22x3
        (takeCols (shapeCast S64x14x22x224x3 (takeRows x) shapeCasts_S64x308x224x3_S64x14x22x224x3))
        shapeCasts_S64x14x22x308x3_S64x14x22x14x22x3)
      transposes_S64x14x22x14x22x3_S64x14x14x22x22x3_0_1_3_2_4_5)
    shapeCasts_S64x14x14x22x22x3_S64x196x1452

/-- The result: every flattened window against the weight matrix. -/
def out (x : FVec F S64x224x224x3 .f32) (w : FVec F S1452x768 .f32) : FVec F S64x196x768 .f32 :=
  Host.dotGeneral dot_S64x196x1452_S1452x768_S64x196x768_2_0_01_1_n_n none (patches x) w

/-! ## The program as a list of operations -/

/-- @main's 52 operations in order, the two takes (24 each: 23 of their own and the one select of the where they call)
    written out over the buffers of their calls. -/
abbrev ops : List (HloOp τ sig (Elt F)) :=
  [ nullary main_c (fun i => lit0 (S308.rowMajor i)),
    -- the take along axis 1
    TRef.nullary main_call0.c (constantI S_ 32 0#32),
    TRef.unary main_call0.c main_call0.v0 (broadcastInDim S308 ![] bcast_S_S308),
    TRef.binary (.of main_c) main_call0.v0 main_call0.v1 (cmpi .slt),
    TRef.nullary main_call0.c_0 (constantI S_ 32 224#32),
    TRef.unary main_call0.c_0 main_call0.v2 (broadcastInDim S308 ![] bcast_S_S308),
    TRef.binary (.of main_c) main_call0.v2 main_call0.v3 addi,
    TRef.ternary main_call0.v1 main_call0.v3 (.of main_c) main_call0.call0.v0 select,
    TRef.unary main_call0.call0.v0 main_call0.v5 (broadcastInDim S308x1 ![0] bcast_S308_S308x1_0),
    TRef.nullary main_call0.c_1 (constantI S1 32 223#32),
    TRef.nullary main_call0.c_2 (constantI S_ 32 0#32),
    TRef.unary main_call0.c_2 main_call0.v6 (broadcastInDim S308x1 ![] bcast_S_S308x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S308x1 ![0, 1] bcast_S1x1_S308x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S308x1_S308_d1 h_S_),
    TRef.binary (.of main_arg0) main_call0.v5 main_call0.v13 (fun x i => Host.gather gather_S64x224x224x3_S308x1_S64x308x224x3_023_1_n_n_1_1_6412243 x i),
    TRef.unary main_call0.v12 main_call0.v14 (broadcastInDim S64x308x224x3 ![1] bcast_S308_S64x308x224x3_1),
    TRef.nullary main_call0.cst (constant S_ .f32 0x7FC00000#32),
    TRef.unary main_call0.cst main_call0.v15 (broadcastInDim S64x308x224x3 ![] bcast_S_S64x308x224x3),
    TRef.ternary main_call0.v14 main_call0.v13 main_call0.v15 main_call0.v16 select,
    reshape main_v0 main_v1 rfl shapeCasts_S64x308x224x3_S64x14x22x224x3,
    -- the take along axis 3
    TRef.nullary main_call1.c (constantI S_ 32 0#32),
    TRef.unary main_call1.c main_call1.v0 (broadcastInDim S308 ![] bcast_S_S308),
    TRef.binary (.of main_c) main_call1.v0 main_call1.v1 (cmpi .slt),
    TRef.nullary main_call1.c_0 (constantI S_ 32 224#32),
    TRef.unary main_call1.c_0 main_call1.v2 (broadcastInDim S308 ![] bcast_S_S308),
    TRef.binary (.of main_c) main_call1.v2 main_call1.v3 addi,
    TRef.ternary main_call1.v1 main_call1.v3 (.of main_c) main_call1.call0.v0 select,
    TRef.unary main_call1.call0.v0 main_call1.v5 (broadcastInDim S308x1 ![0] bcast_S308_S308x1_0),
    TRef.nullary main_call1.c_1 (constantI S1 32 223#32),
    TRef.nullary main_call1.c_2 (constantI S_ 32 0#32),
    TRef.unary main_call1.c_2 main_call1.v6 (broadcastInDim S308x1 ![] bcast_S_S308x1),
    TRef.binary main_call1.v5 main_call1.v6 main_call1.v7 (cmpi .sge),
    TRef.unary main_call1.c_1 main_call1.v8 (broadcastInDim S1x1 ![1] bcast_S1_S1x1_1),
    TRef.unary main_call1.v8 main_call1.v9 (broadcastInDim S308x1 ![0, 1] bcast_S1x1_S308x1_0_1),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S308x1_S308_d1 h_S_),
    TRef.binary (.of main_v1) main_call1.v5 main_call1.v13 (fun x i => Host.gather gather_S64x14x22x224x3_S308x1_S64x14x22x308x3_0124_3_n_n_3_1_64142213 x i),
    TRef.unary main_call1.v12 main_call1.v14 (broadcastInDim S64x14x22x308x3 ![3] bcast_S308_S64x14x22x308x3_3),
    TRef.nullary main_call1.cst (constant S_ .f32 0x7FC00000#32),
    TRef.unary main_call1.cst main_call1.v15 (broadcastInDim S64x14x22x308x3 ![] bcast_S_S64x14x22x308x3),
    TRef.ternary main_call1.v14 main_call1.v13 main_call1.v15 main_call1.v16 select,
    reshape main_v2 main_v3 rfl shapeCasts_S64x14x22x308x3_S64x14x22x14x22x3,
    unary main_v3 main_v4 ((transpose S64x14x14x22x22x3 [0, 1, 3, 2, 4, 5] · transposes_S64x14x22x14x22x3_S64x14x14x22x22x3_0_1_3_2_4_5) : (⟨S64x14x22x14x22x3, .f32⟩ : BufTy).Contents (Elt F) → (⟨S64x14x14x22x22x3, .f32⟩ : BufTy).Contents (Elt F)),
    reshape main_v4 main_v5 rfl shapeCasts_S64x14x14x22x22x3_S64x196x1452,
    binary main_v5 main_arg1 main_v6 ((fun l r => Host.dotGeneral dot_S64x196x1452_S1452x768_S64x196x768_2_0_01_1_n_n none l r) : (⟨S64x196x1452, .f32⟩ : BufTy).Contents (Elt F) → (⟨S1452x768, .f32⟩ : BufTy).Contents (Elt F) → (⟨S64x196x768, .f32⟩ : BufTy).Contents (Elt F)) ]

set_option maxRecDepth 1024 in
/-- @main is that straight line: with the three functions' bodies unfolded at their calls and sequencing
    re-associated, both sides are one chain of single operations. -/
theorem main_eq (c : Dev nD) : main (F := F) c = seq ops := by
  simp only [main, fn_take.body, fn_take_0.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    reshape_bufs_sub .., unary_bufs_sub .., reshape_bufs_sub .., binary_bufs_sub ..⟩

/-- On every device, for any float values, from any memory with zero counters: every weakly fair execution of @main
    terminates, and every final state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRead.lean ====
/-
  The reference program's fold, read at the three buffers the claim speaks of.

  Each operation's result is read where a later operation consumes it; following those reads back from the result
  buffer composes the stages of the run module into "out" of the two arguments' contents, and no operation writes an
  argument. The reduction, the gathers and the product stay closed throughout: the equations never look inside them.
-/
import proofs.«157099_j38044820308624_2_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.reduce Host.gather in
set_option maxRecDepth 8192 in
/-- At the result buffer the fold is "out" of the two arguments' contents: read each operation's result where it is
    consumed (the moves between a value's type and its buffer's type are the identity at these buffers), then open the
    stages' definitions; the two sides are the same term. -/
theorem out_eq (V : Valuation τ sig (Elt F)) :
    after ops V (main_v6 : DevRef τ sig) = out (V (main_arg0 : DevRef τ sig)) (V (main_arg1 : DevRef τ sig)) := by
  after_results_simp
  simp only [TRef.toBuf, TRef.ofBuf, cast_eq]
  unfold out patches takeCols takeRows inRange starts wrapped table
  rfl

set_option maxRecDepth 8192 in
/-- No operation writes the first argument. -/
theorem arg0_eq (V : Valuation τ sig (Elt F)) :
    after ops V (main_arg0 : DevRef τ sig) = V (main_arg0 : DevRef τ sig) := by
  after_results_simp

set_option maxRecDepth 8192 in
/-- No operation writes the second argument. -/
theorem arg1_eq (V : Valuation τ sig (Elt F)) :
    after ops V (main_arg1 : DevRef τ sig) = V (main_arg1 : DevRef τ sig) := by
  after_results_simp

/-- The run, read at the result and the two arguments: the result is "out" of the arguments' launch contents, and the
    arguments are unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v6)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c => ⟨(h c main_v6).trans (out_eq (launchContents m c)),
      (h c main_arg0).trans (arg0_eq (launchContents m c)),
      (h c main_arg1).trans (arg1_eq (launchContents m c))⟩)
    (run_main m ρ)

end Cert.ReferenceIdeal.RefRun

end
-- ==== Proof.RefValue.lean ====
/-
  The reference program's result is the overlapping-window patch projection of the specification.

  The run module reads the reference's result as "out" of the two argument arrays: rows taken along axis 1 at the
  308 table positions, regrouped as (window row, row in window); columns taken likewise along axis 3; the two middle
  axes swapped; each window flattened to 1452 numbers; the product with the weights. Here every stage is read at an
  index, at the ideal values:

    * every table position lies in 0..223, so the index normalisation leaves it alone, the validity mask is all ones
      and the NaN branch of each select is never taken; position r is start (r / 22) + r % 22 (both facts by
      evaluation over the 308 entries);
    * a gather along one axis reads the operand at the same coordinates with that axis's coordinate replaced by the
      clamped start index;
    * a regrouping reads the operand at the index with the same row-major position, a swap of axes at the index
      with the two coordinates exchanged;
    * the product at (b, n, d) is the sum over the 1452 contraction positions.

  Composed: entry f of window n = 14 p + q of image b is pixel (start p + f / 66, start q + f / 3 % 22, f % 3), and the
  result at (b, n, d) is the specification's sum.
-/
import proofs.«157099_j38044820308624_2_alg».proof.Proof.RefRead
import proofs.«157099_j38044820308624_2_alg».proof.Proof.Patches
import Idealize.ShloMosaic.Lib.ValueIdxRank6
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
  Idealize.ShloMosaic.TcCoe Idealize.SL.Sem Idealize.ShloMosaic.StableHlo
open scoped BigOperators

/-! ## The table -/

/-- Entry r of the table after the index normalisation. -/
def pos (r : Fin 308) : BitVec 32 :=
  Scalar.select (IntOp.cmpi .slt (lit0 r) 0#32) (IntOp.addi (lit0 r) 224#32) (lit0 r)

/-- Every normalised position lies in 0..223. -/
theorem pos_inRange : ∀ r : Fin 308,
    IntOp.andi (IntOp.cmpi .sge (pos r) 0#32) (IntOp.cmpi .sle (pos r) 223#32) = 1#1 := by decide +kernel

/-- Position r, read as the gather reads it (signed, clamped into 0..223), is pixel r % 22 of window r / 22. -/
theorem pos_val : ∀ r : Fin 308,
    min (pos r).toInt.toNat 223 = Cert.Patches.start (r.val / 22) + r.val % 22 := by decide +kernel

/-- Row r of the start-index column holds the normalised position r. -/
theorem starts_apply (r : Fin 308) (u : Fin 1) : starts table (ix2 r u) = pos r := by
  unfold starts
  rw [broadcastInDim_apply ![0] bcast_S308_S308x1_0 (wrapped table) (ix2 r u) (ix1 r)
    (by intro a; match a with | ⟨0, _⟩ => rfl)]
  show Scalar.select (IntOp.cmpi .slt (lit0 (S308.rowMajor (ix1 r))) 0#32)
    (IntOp.addi (lit0 (S308.rowMajor (ix1 r))) 224#32) (lit0 (S308.rowMajor (ix1 r))) = pos r
  have e : S308.rowMajor (ix1 r) = r := Fin.ext (Shape.rowMajor_val_one _)
  rw [e]; rfl

/-- A conjunction of ones, started at one, is one. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    have e : IntOp.andi 1#1 1#1 = 1#1 := by decide
    rw [List.foldl_cons, h a (List.mem_cons_self ..), e]
    exact foldl_andi_ones f l (fun n hn => h n (List.mem_cons_of_mem _ hn))

/-- The validity mask is all ones. -/
theorem inRange_apply (j : S308.Idx) : inRange table j = 1#1 := by
  unfold inRange Host.reduce
  refine foldl_andi_ones _ _ (fun n _ => ?_)
  generalize S308x1.rowMajor.symm n = i
  obtain ⟨a, u, rfl⟩ : ∃ (a : Fin 308) (u : Fin 1), i = ix2 a u := ⟨i 0, i 1, eq_ix2 i⟩
  show IntOp.andi (IntOp.cmpi .sge (starts table (ix2 a u)) 0#32) (IntOp.cmpi .sle (starts table (ix2 a u)) 223#32) = 1#1
  rw [starts_apply]
  exact pos_inRange a

/-! ## The two gathers at an index -/

/-- The gather along axis 1 reads, at result index (b, s, t, ch), the operand at (b, start index s clamped, t, ch). -/
theorem gatherRows_apply {α : Type} (x : S64x224x224x3.Idx → α) (idx : IVec S308x1 32)
    (b : Fin 64) (s : Fin 308) (t : Fin 224) (ch : Fin 3) :
    Host.gather gather_S64x224x224x3_S308x1_S64x308x224x3_023_1_n_n_1_1_6412243 x idx (ix4 b s t ch)
      = x (ix4 b ⟨min (idx (ix2 s 0)).toInt.toNat 223, by omega⟩ t ch) := by
  unfold Host.gather
  congr 1
  funext a
  refine Fin.ext ?_
  have hsi : gather_S64x224x224x3_S308x1_S64x308x224x3_023_1_n_n_1_1_6412243.siIdx (ix4 b s t ch) ⟨0, by decide⟩ = ix2 s 0 := by
    funext c; refine Fin.ext ?_
    match c with
    | ⟨0, _⟩ => rfl
    | ⟨1, _⟩ => rfl
  match a with
  | ⟨0, _⟩ =>
    show gather_S64x224x224x3_S308x1_S64x308x224x3_023_1_n_n_1_1_6412243.start (ix4 b s t ch) idx 0
        + gather_S64x224x224x3_S308x1_S64x308x224x3_023_1_n_n_1_1_6412243.batchCoord (ix4 b s t ch) 0
        + gather_S64x224x224x3_S308x1_S64x308x224x3_023_1_n_n_1_1_6412243.offCoord (ix4 b s t ch) 0 = b.val
    have h1 : gather_S64x224x224x3_S308x1_S64x308x224x3_023_1_n_n_1_1_6412243.start (ix4 b s t ch) idx 0 = 0 := rfl
    have h2 : gather_S64x224x224x3_S308x1_S64x308x224x3_023_1_n_n_1_1_6412243.batchCoord (ix4 b s t ch) 0 = 0 := rfl
    have h3 : gather_S64x224x224x3_S308x1_S64x308x224x3_023_1_n_n_1_1_6412243.offCoord (ix4 b s t ch) 0 = b.val := rfl
    rw [h1, h2, h3]; omega
  | ⟨1, _⟩ =>
    show gather_S64x224x224x3_S308x1_S64x308x224x3_023_1_n_n_1_1_6412243.start (ix4 b s t ch) idx 1
        + gather_S64x224x224x3_S308x1_S64x308x224x3_023_1_n_n_1_1_6412243.batchCoord (ix4 b s t ch) 1
        + gather_S64x224x224x3_S308x1_S64x308x224x3_023_1_n_n_1_1_6412243.offCoord (ix4 b s t ch) 1
      = min (idx (ix2 s 0)).toInt.toNat 223
    have h1 : gather_S64x224x224x3_S308x1_S64x308x224x3_023_1_n_n_1_1_6412243.start (ix4 b s t ch) idx 1
        = min (idx (gather_S64x224x224x3_S308x1_S64x308x224x3_023_1_n_n_1_1_6412243.siIdx (ix4 b s t ch) ⟨0, by decide⟩)).toInt.toNat 223 := rfl
    have h2 : gather_S64x224x224x3_S308x1_S64x308x224x3_023_1_n_n_1_1_6412243.batchCoord (ix4 b s t ch) 1 = 0 := rfl
    have h3 : gather_S64x224x224x3_S308x1_S64x308x224x3_023_1_n_n_1_1_6412243.offCoord (ix4 b s t ch) 1 = 0 := rfl
    rw [h1, h2, h3, hsi]; omega
  | ⟨2, _⟩ =>
    show gather_S64x224x224x3_S308x1_S64x308x224x3_023_1_n_n_1_1_6412243.start (ix4 b s t ch) idx 2
        + gather_S64x224x224x3_S308x1_S64x308x224x3_023_1_n_n_1_1_6412243.batchCoord (ix4 b s t ch) 2
        + gather_S64x224x224x3_S308x1_S64x308x224x3_023_1_n_n_1_1_6412243.offCoord (ix4 b s t ch) 2 = t.val
    have h1 : gather_S64x224x224x3_S308x1_S64x308x224x3_023_1_n_n_1_1_6412243.start (ix4 b s t ch) idx 2 = 0 := rfl
    have h2 : gather_S64x224x224x3_S308x1_S64x308x224x3_023_1_n_n_1_1_6412243.batchCoord (ix4 b s t ch) 2 = 0 := rfl
    have h3 : gather_S64x224x224x3_S308x1_S64x308x224x3_023_1_n_n_1_1_6412243.offCoord (ix4 b s t ch) 2 = t.val := rfl
    rw [h1, h2, h3]; omega
  | ⟨3, _⟩ =>
    show gather_S64x224x224x3_S308x1_S64x308x224x3_023_1_n_n_1_1_6412243.start (ix4 b s t ch) idx 3
        + gather_S64x224x224x3_S308x1_S64x308x224x3_023_1_n_n_1_1_6412243.batchCoord (ix4 b s t ch) 3
        + gather_S64x224x224x3_S308x1_S64x308x224x3_023_1_n_n_1_1_6412243.offCoord (ix4 b s t ch) 3 = ch.val
    have h1 : gather_S64x224x224x3_S308x1_S64x308x224x3_023_1_n_n_1_1_6412243.start (ix4 b s t ch) idx 3 = 0 := rfl
    have h2 : gather_S64x224x224x3_S308x1_S64x308x224x3_023_1_n_n_1_1_6412243.batchCoord (ix4 b s t ch) 3 = 0 := rfl
    have h3 : gather_S64x224x224x3_S308x1_S64x308x224x3_023_1_n_n_1_1_6412243.offCoord (ix4 b s t ch) 3 = ch.val := rfl
    rw [h1, h2, h3]; omega

/-- The gather along axis 3 reads, at result index (b, p, r, s, ch), the operand at (b, p, r, start index s clamped, ch). -/
theorem gatherCols_apply {α : Type} (y : S64x14x22x224x3.Idx → α) (idx : IVec S308x1 32)
    (b : Fin 64) (p : Fin 14) (r : Fin 22) (s : Fin 308) (ch : Fin 3) :
    Host.gather gather_S64x14x22x224x3_S308x1_S64x14x22x308x3_0124_3_n_n_3_1_64142213 y idx (ix5 b p r s ch)
      = y (ix5 b p r ⟨min (idx (ix2 s 0)).toInt.toNat 223, by omega⟩ ch) := by
  unfold Host.gather
  congr 1
  funext a
  refine Fin.ext ?_
  have hsi : gather_S64x14x22x224x3_S308x1_S64x14x22x308x3_0124_3_n_n_3_1_64142213.siIdx (ix5 b p r s ch) ⟨0, by decide⟩ = ix2 s 0 := by
    funext c; refine Fin.ext ?_
    match c with
    | ⟨0, _⟩ => rfl
    | ⟨1, _⟩ => rfl
  match a with
  | ⟨0, _⟩ =>
    show gather_S64x14x22x224x3_S308x1_S64x14x22x308x3_0124_3_n_n_3_1_64142213.start (ix5 b p r s ch) idx 0 + gather_S64x14x22x224x3_S308x1_S64x14x22x308x3_0124_3_n_n_3_1_64142213.batchCoord (ix5 b p r s ch) 0 + gather_S64x14x22x224x3_S308x1_S64x14x22x308x3_0124_3_n_n_3_1_64142213.offCoord (ix5 b p r s ch) 0 = b.val
    have h1 : gather_S64x14x22x224x3_S308x1_S64x14x22x308x3_0124_3_n_n_3_1_64142213.start (ix5 b p r s ch) idx 0 = 0 := rfl
    have h2 : gather_S64x14x22x224x3_S308x1_S64x14x22x308x3_0124_3_n_n_3_1_64142213.batchCoord (ix5 b p r s ch) 0 = 0 := rfl
    have h3 : gather_S64x14x22x224x3_S308x1_S64x14x22x308x3_0124_3_n_n_3_1_64142213.offCoord (ix5 b p r s ch) 0 = b.val := rfl
    rw [h1, h2, h3]; omega
  | ⟨1, _⟩ =>
    show gather_S64x14x22x224x3_S308x1_S64x14x22x308x3_0124_3_n_n_3_1_64142213.start (ix5 b p r s ch) idx 1 + gather_S64x14x22x224x3_S308x1_S64x14x22x308x3_0124_3_n_n_3_1_64142213.batchCoord (ix5 b p r s ch) 1 + gather_S64x14x22x224x3_S308x1_S64x14x22x308x3_0124_3_n_n_3_1_64142213.offCoord (ix5 b p r s ch) 1 = p.val
    have h1 : gather_S64x14x22x224x3_S308x1_S64x14x22x308x3_0124_3_n_n_3_1_64142213.start (ix5 b p r s ch) idx 1 = 0 := rfl
    have h2 : gather_S64x14x22x224x3_S308x1_S64x14x22x308x3_0124_3_n_n_3_1_64142213.batchCoord (ix5 b p r s ch) 1 = 0 := rfl
    have h3 : gather_S64x14x22x224x3_S308x1_S64x14x22x308x3_0124_3_n_n_3_1_64142213.offCoord (ix5 b p r s ch) 1 = p.val := rfl
    rw [h1, h2, h3]; omega
  | ⟨2, _⟩ =>
    show gather_S64x14x22x224x3_S308x1_S64x14x22x308x3_0124_3_n_n_3_1_64142213.start (ix5 b p r s ch) idx 2 + gather_S64x14x22x224x3_S308x1_S64x14x22x308x3_0124_3_n_n_3_1_64142213.batchCoord (ix5 b p r s ch) 2 + gather_S64x14x22x224x3_S308x1_S64x14x22x308x3_0124_3_n_n_3_1_64142213.offCoord (ix5 b p r s ch) 2 = r.val
    have h1 : gather_S64x14x22x224x3_S308x1_S64x14x22x308x3_0124_3_n_n_3_1_64142213.start (ix5 b p r s ch) idx 2 = 0 := rfl
    have h2 : gather_S64x14x22x224x3_S308x1_S64x14x22x308x3_0124_3_n_n_3_1_64142213.batchCoord (ix5 b p r s ch) 2 = 0 := rfl
    have h3 : gather_S64x14x22x224x3_S308x1_S64x14x22x308x3_0124_3_n_n_3_1_64142213.offCoord (ix5 b p r s ch) 2 = r.val := rfl
    rw [h1, h2, h3]; omega
  | ⟨3, _⟩ =>
    show gather_S64x14x22x224x3_S308x1_S64x14x22x308x3_0124_3_n_n_3_1_64142213.start (ix5 b p r s ch) idx 3 + gather_S64x14x22x224x3_S308x1_S64x14x22x308x3_0124_3_n_n_3_1_64142213.batchCoord (ix5 b p r s ch) 3 + gather_S64x14x22x224x3_S308x1_S64x14x22x308x3_0124_3_n_n_3_1_64142213.offCoord (ix5 b p r s ch) 3 = min (idx (ix2 s 0)).toInt.toNat 223
    have h1 : gather_S64x14x22x224x3_S308x1_S64x14x22x308x3_0124_3_n_n_3_1_64142213.start (ix5 b p r s ch) idx 3 = min (idx (gather_S64x14x22x224x3_S308x1_S64x14x22x308x3_0124_3_n_n_3_1_64142213.siIdx (ix5 b p r s ch) ⟨0, by decide⟩)).toInt.toNat 223 := rfl
    have h2 : gather_S64x14x22x224x3_S308x1_S64x14x22x308x3_0124_3_n_n_3_1_64142213.batchCoord (ix5 b p r s ch) 3 = 0 := rfl
    have h3 : gather_S64x14x22x224x3_S308x1_S64x14x22x308x3_0124_3_n_n_3_1_64142213.offCoord (ix5 b p r s ch) 3 = 0 := rfl
    rw [h1, h2, h3, hsi]; omega
  | ⟨4, _⟩ =>
    show gather_S64x14x22x224x3_S308x1_S64x14x22x308x3_0124_3_n_n_3_1_64142213.start (ix5 b p r s ch) idx 4 + gather_S64x14x22x224x3_S308x1_S64x14x22x308x3_0124_3_n_n_3_1_64142213.batchCoord (ix5 b p r s ch) 4 + gather_S64x14x22x224x3_S308x1_S64x14x22x308x3_0124_3_n_n_3_1_64142213.offCoord (ix5 b p r s ch) 4 = ch.val
    have h1 : gather_S64x14x22x224x3_S308x1_S64x14x22x308x3_0124_3_n_n_3_1_64142213.start (ix5 b p r s ch) idx 4 = 0 := rfl
    have h2 : gather_S64x14x22x224x3_S308x1_S64x14x22x308x3_0124_3_n_n_3_1_64142213.batchCoord (ix5 b p r s ch) 4 = 0 := rfl
    have h3 : gather_S64x14x22x224x3_S308x1_S64x14x22x308x3_0124_3_n_n_3_1_64142213.offCoord (ix5 b p r s ch) 4 = ch.val := rfl
    rw [h1, h2, h3]; omega

/-! ## The two takes at an index -/

/-- Rows taken: result row s of image b is source row start (s / 22) + s % 22. -/
theorem takeRows_apply {F : FTy → Type} [FloatOps F] (x : FVec F S64x224x224x3 .f32) (b : Fin 64) (s : Fin 308) (t : Fin 224) (ch : Fin 3) :
    takeRows x (ix4 b s t ch)
      = x (ix4 b ⟨Cert.Patches.start (s.val / 22) + s.val % 22, by have := Cert.Patches.start_le (s.val / 22); omega⟩ t ch) := by
  unfold takeRows
  rw [select_apply, broadcastInDim_apply ![1] bcast_S308_S64x308x224x3_1 (inRange table) (ix4 b s t ch) (ix1 s)
    (by intro a; match a with | ⟨0, _⟩ => rfl), inRange_apply, select_one, gatherRows_apply]
  refine congrArg x ?_
  funext a
  refine Fin.ext ?_
  match a with
  | ⟨0, _⟩ => rfl
  | ⟨1, _⟩ =>
    show min (starts table (ix2 s 0)).toInt.toNat 223 = Cert.Patches.start (s.val / 22) + s.val % 22
    rw [starts_apply]; exact pos_val s
  | ⟨2, _⟩ => rfl
  | ⟨3, _⟩ => rfl

/-- Columns taken: result column s is source column start (s / 22) + s % 22. -/
theorem takeCols_apply {F : FTy → Type} [FloatOps F] (y : FVec F S64x14x22x224x3 .f32) (b : Fin 64) (p : Fin 14) (r : Fin 22) (s : Fin 308) (ch : Fin 3) :
    takeCols y (ix5 b p r s ch)
      = y (ix5 b p r ⟨Cert.Patches.start (s.val / 22) + s.val % 22, by have := Cert.Patches.start_le (s.val / 22); omega⟩ ch) := by
  unfold takeCols
  rw [select_apply, broadcastInDim_apply ![3] bcast_S308_S64x14x22x308x3_3 (inRange table) (ix5 b p r s ch) (ix1 s)
    (by intro a; match a with | ⟨0, _⟩ => rfl), inRange_apply, select_one, gatherCols_apply]
  refine congrArg y ?_
  funext a
  refine Fin.ext ?_
  match a with
  | ⟨0, _⟩ => rfl
  | ⟨1, _⟩ => rfl
  | ⟨2, _⟩ => rfl
  | ⟨3, _⟩ =>
    show min (starts table (ix2 s 0)).toInt.toNat 223 = Cert.Patches.start (s.val / 22) + s.val % 22
    rw [starts_apply]; exact pos_val s
  | ⟨4, _⟩ => rfl

/-! ## A flattened window, and the product -/

/-- One number of a flattened window: entry f of window n of image b is the pixel the specification names. -/
theorem patches_apply {F : FTy → Type} [FloatOps F] (x : FVec F S64x224x224x3 .f32) (b : Fin 64) (n : Fin 196) (f : Fin 1452) :
    patches x (ix3 b n f) = x (ix4 b (Cert.Patches.row n f) (Cert.Patches.col n f) (Cert.Patches.chan f)) := by
  have hn := n.isLt
  have hf := f.isLt
  -- the window's grid position, and the entry's position inside the window
  let p : Fin 14 := ⟨n.val / 14, by omega⟩
  let q : Fin 14 := ⟨n.val % 14, by omega⟩
  let r : Fin 22 := ⟨f.val / 66, by omega⟩
  let c : Fin 22 := ⟨f.val / 3 % 22, by omega⟩
  let ch : Fin 3 := ⟨f.val % 3, by omega⟩
  unfold patches
  -- flatten: (b, n, f) is (b, p, q, r, c, ch) row-major
  rw [shapeCast_apply _ shapeCasts_S64x14x14x22x22x3_S64x196x1452 (ix3 b n f) (ix6 b p q r c ch) (by
    rw [Shape.rowMajor_val_six, Shape.rowMajor_val_three]
    show ((((b.val * 14 + n.val / 14) * 14 + n.val % 14) * 22 + f.val / 66) * 22 + f.val / 3 % 22) * 3 + f.val % 3
      = (b.val * 196 + n.val) * 1452 + f.val
    omega)]
  -- the swap of the two middle axes
  rw [transpose_apply [0, 1, 3, 2, 4, 5] _ transposes_S64x14x22x14x22x3_S64x14x14x22x22x3_0_1_3_2_4_5 (ix6 b p q r c ch) (ix6 b p r q c ch) (by
    intro a
    match a with
    | ⟨0, _⟩ => rfl
    | ⟨1, _⟩ => rfl
    | ⟨2, _⟩ => rfl
    | ⟨3, _⟩ => rfl
    | ⟨4, _⟩ => rfl
    | ⟨5, _⟩ => rfl)]
  -- regroup the columns: (q, c) is column 22 q + c of the 308 taken
  rw [shapeCast_apply _ shapeCasts_S64x14x22x308x3_S64x14x22x14x22x3 (ix6 b p r q c ch)
    (ix5 b p r (⟨22 * (n.val % 14) + f.val / 3 % 22, by omega⟩ : Fin 308) ch) (by
    rw [Shape.rowMajor_val_five, Shape.rowMajor_val_six]
    show (((b.val * 14 + n.val / 14) * 22 + f.val / 66) * 308 + (22 * (n.val % 14) + f.val / 3 % 22)) * 3 + f.val % 3
      = ((((b.val * 14 + n.val / 14) * 22 + f.val / 66) * 14 + n.val % 14) * 22 + f.val / 3 % 22) * 3 + f.val % 3
    omega)]
  rw [takeCols_apply]
  -- regroup the rows: (p, r) is row 22 p + r of the 308 taken
  rw [shapeCast_apply _ shapeCasts_S64x308x224x3_S64x14x22x224x3 _
    (ix4 b (⟨22 * (n.val / 14) + f.val / 66, by omega⟩ : Fin 308)
      (⟨Cert.Patches.start ((22 * (n.val % 14) + f.val / 3 % 22) / 22) + (22 * (n.val % 14) + f.val / 3 % 22) % 22, by
        have := Cert.Patches.start_le ((22 * (n.val % 14) + f.val / 3 % 22) / 22); omega⟩ : Fin 224) ch) (by
    rw [Shape.rowMajor_val_four, Shape.rowMajor_val_five]
    show ((b.val * 308 + (22 * (n.val / 14) + f.val / 66)) * 224 + (Cert.Patches.start ((22 * (n.val % 14) + f.val / 3 % 22) / 22) + (22 * (n.val % 14) + f.val / 3 % 22) % 22)) * 3 + f.val % 3
      = (((b.val * 14 + n.val / 14) * 22 + f.val / 66) * 224 + (Cert.Patches.start ((22 * (n.val % 14) + f.val / 3 % 22) / 22) + (22 * (n.val % 14) + f.val / 3 % 22) % 22)) * 3 + f.val % 3
    omega)]
  rw [takeRows_apply]
  refine congrArg x ?_
  have e1 : (22 * (n.val / 14) + f.val / 66) / 22 = n.val / 14 := by omega
  have e2 : (22 * (n.val / 14) + f.val / 66) % 22 = f.val / 66 := by omega
  have e3 : (22 * (n.val % 14) + f.val / 3 % 22) / 22 = n.val % 14 := by omega
  have e4 : (22 * (n.val % 14) + f.val / 3 % 22) % 22 = f.val / 3 % 22 := by omega
  funext a
  refine Fin.ext ?_
  match a with
  | ⟨0, _⟩ => rfl
  | ⟨1, _⟩ =>
    show Cert.Patches.start ((22 * (n.val / 14) + f.val / 66) / 22) + (22 * (n.val / 14) + f.val / 66) % 22
      = Cert.Patches.start (n.val / 14) + f.val / 66
    rw [e1, e2]
  | ⟨2, _⟩ =>
    show Cert.Patches.start ((22 * (n.val % 14) + f.val / 3 % 22) / 22) + (22 * (n.val % 14) + f.val / 3 % 22) % 22
      = Cert.Patches.start (n.val % 14) + f.val / 3 % 22
    rw [e3, e4]
  | ⟨3, _⟩ => rfl

/-- The product at an index: the sum over the 1452 entries of a flattened window against a column of the weights. -/
theorem out_apply (x : FVec Ideal S64x224x224x3 .f32) (w : FVec Ideal S1452x768 .f32) (b : Fin 64) (n : Fin 196) (d : Fin 768) :
    out (F := Ideal) x w (ix3 b n d) = ∑ f : Fin 1452, patches x (ix3 b n f) * w (ix2 f d) := by
  unfold out
  show FloatOps.dotGeneral dot_S64x196x1452_S1452x768_S64x196x768_2_0_01_1_n_n none _ (patches x) w (ix3 b n d) = _
  rw [Ideal.dotGeneral_apply, ← Equiv.sum_comp (contrEquiv1 dot_S64x196x1452_S1452x768_S64x196x768_2_0_01_1_n_n 1452 rfl rfl).symm]
  refine Finset.sum_congr rfl fun f _ => ?_
  have hf := contrEquiv1_symm_val dot_S64x196x1452_S1452x768_S64x196x768_2_0_01_1_n_n 1452 rfl rfl f
  have el : dot_S64x196x1452_S1452x768_S64x196x768_2_0_01_1_n_n.lhsIdx (ix3 b n d) ((contrEquiv1 dot_S64x196x1452_S1452x768_S64x196x768_2_0_01_1_n_n 1452 rfl rfl).symm f) = ix3 b n f := by
    funext a; refine Fin.ext ?_
    match a with
    | ⟨0, _⟩ => rfl
    | ⟨1, _⟩ => rfl
    | ⟨2, _⟩ => exact (dot_S64x196x1452_S1452x768_S64x196x768_2_0_01_1_n_n.lhsIdx_val_of_single rfl _ _).trans hf
  have er : dot_S64x196x1452_S1452x768_S64x196x768_2_0_01_1_n_n.rhsIdx (ix3 b n d) ((contrEquiv1 dot_S64x196x1452_S1452x768_S64x196x768_2_0_01_1_n_n 1452 rfl rfl).symm f) = ix2 f d := by
    funext a; refine Fin.ext ?_
    match a with
    | ⟨0, _⟩ => exact (dot_S64x196x1452_S1452x768_S64x196x768_2_0_01_1_n_n.rhsIdx_val_of_single rfl _ _).trans hf
    | ⟨1, _⟩ => rfl
  rw [el, er]

/-- The reference's result is the specification's array. -/
theorem out_eq_G (x : FVec Ideal S64x224x224x3 .f32) (w : FVec Ideal S1452x768 .f32) :
    out (F := Ideal) x w = Cert.Patches.G x w := by
  funext i
  obtain ⟨b, n, d, rfl⟩ : ∃ (b : Fin 64) (n : Fin 196) (d : Fin 768), i = ix3 b n d := ⟨i 0, i 1, i 2, eq_ix3 i⟩
  rw [out_apply, Cert.Patches.G_apply]
  unfold Cert.Patches.entry
  refine Finset.sum_congr rfl fun f _ => ?_
  rw [patches_apply]

/-! ## The run -/

/-- On every device, from any memory with zero counters: every weakly fair execution of the reference terminates with
    the result buffer at the specification's array of the two arguments' launch contents, and the arguments unchanged. -/
theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ fun r => ∀ c : Dev Cert.ReferenceIdeal.nD,
      r.2.mem ((c.tc : Thread Cert.ReferenceIdeal.nD Cert.ReferenceIdeal.τ).loc Cert.ReferenceIdeal.main_v6) = Cert.Patches.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1) :=
  (θ_run (Cert.ReferenceIdeal.defs (F := Ideal)) _ _).mono
    (fun _ h c => ⟨(h c).1.trans (out_eq_G _ _), (h c).2.1, (h c).2.2⟩)
    (run_out (F := Ideal) m ρ)

end Cert.ReferenceIdeal.RefValue

end
-- ==== Proof.lean ====
/-
  The claim: a Pallas kernel that cuts four images per grid point into a 14 x 14 grid of overlapping 22 x 22 windows
  (by static row and column slices stacked along new axes), flattens each window to 1452 numbers and multiplies by the
  1452 x 768 weight matrix, against a reference that gathers the same window rows and columns through an index table
  (jnp.take twice), transposes, flattens and contracts with the weights.

  At the ideal values both results are one function of the two arguments (the module Patches):
      out[b, 14 p + q, d] = sum over f < 1452 of x[b, start p + f / 66, start q + f / 3 % 22, f % 3] * W[f, d],
  start p = min (16 p - 3) 202. On the kernel's side the window offsets are the literals 0, 13, 29, ..., 189, 202 of its
  slices, the rounding of the weights and of the windows to a narrower float format is the identity at the ideal values,
  and the sixteen blocks of four images tile the result. On the reference's side every entry of the index table is a
  valid pixel index, so the gather's out-of-range filler is never selected, and entry 22 p + h of the table is
  start p + h. No algebra beyond reading both sums over the same index set is needed, and so no finiteness of the
  inputs. The idealized kernel is the kernel's own text read at the ideal values: the ledger of rewrites is empty.
-/
import proofs.«157099_j38044820308624_2_alg».proof.Defs
import proofs.«157099_j38044820308624_2_alg».proof.Proof.Gen.Kernel.Frame
import proofs.«157099_j38044820308624_2_alg».proof.Proof.Gen.KernelIdeal.Frame
import proofs.«157099_j38044820308624_2_alg».proof.Proof.Gen.ReferenceIdeal
import proofs.«157099_j38044820308624_2_alg».proof.Proof.Gen.Pre_finite_inputs
import proofs.«157099_j38044820308624_2_alg».proof.Proof.KernelArray
import proofs.«157099_j38044820308624_2_alg».proof.Proof.RefValue

noncomputable section

namespace Cert.Proof

open Idealize.ShloMosaic Idealize.ShloMosaic.TcCoe Idealize.SL.Sem

/-- The word-level kernel runs and leaves its arguments unchanged: its generated frame. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories agreeing on the arguments both programs end with the specification's array of those arguments. -/
theorem algebraic : Cert.algebraic_KernelIdeal_ReferenceIdeal := by
  intro m ρ m' ρ' _ hagree
  refine ⟨fun c => Cert.Patches.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
